-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S1024x3072 .f32) (main_arg2 : FVec F S3072 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1x3072 : Shape := ⟨2, ![1, 3072]⟩
abbrev S1x1024 : Shape := ⟨2, ![1, 1024]⟩
abbrev S8x1024x3072 : Shape := ⟨3, ![8, 1024, 3072]⟩
abbrev S1x512x1024 : Shape := ⟨3, ![1, 512, 1024]⟩
abbrev S1x512x3072 : Shape := ⟨3, ![1, 512, 3072]⟩
abbrev S512x1024 : Shape := ⟨2, ![512, 1024]⟩
abbrev S512x3072 : Shape := ⟨2, ![512, 3072]⟩
abbrev S8x1024x16x64 : Shape := ⟨4, ![8, 1024, 16, 64]⟩
abbrev S8x16x1024x64 : Shape := ⟨4, ![8, 16, 1024, 64]⟩
abbrev S1x16x1024x64 : Shape := ⟨4, ![1, 16, 1024, 64]⟩
abbrev S1x1x1024x64 : Shape := ⟨4, ![1, 1, 1024, 64]⟩
abbrev S1024x64 : Shape := ⟨2, ![1024, 64]⟩
abbrev S1024x1 : Shape := ⟨2, ![1024, 1]⟩

abbrev nBuf : Space → Nat
  | .hbm => 24
  | .vmem => 20
  | .smem => 0
  | _ => 0

abbrev bufTy : (tb : Table) → Fin (tcTables nBuf tb) → BufTy
  | .hbm, ⟨0, _⟩ => ⟨S8x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x1024, .bf16⟩
  | .hbm, ⟨6, _⟩ => ⟨S1024x3072, .bf16⟩
  | .hbm, ⟨7, _⟩ => ⟨S1024x1024, .bf16⟩
  | .hbm, ⟨8, _⟩ => ⟨S1x3072, .f32⟩
  | .hbm, ⟨9, _⟩ => ⟨S1x1024, .f32⟩
  | .hbm, ⟨10, _⟩ => ⟨S8x1024x3072, .bf16⟩
  | .hbm, ⟨11, _⟩ => ⟨S8x1024x1024, .bf16⟩
  | .hbm, ⟨12, _⟩ => ⟨S8x1024x1024, .bf16⟩
  | .hbm, ⟨13, _⟩ => ⟨S8x1024x1024, .bf16⟩
  | .hbm, ⟨14, _⟩ => ⟨S8x1024x16x64, .bf16⟩
  | .hbm, ⟨15, _⟩ => ⟨S8x16x1024x64, .bf16⟩
  | .hbm, ⟨16, _⟩ => ⟨S8x1024x16x64, .bf16⟩
  | .hbm, ⟨17, _⟩ => ⟨S8x16x1024x64, .bf16⟩
  | .hbm, ⟨18, _⟩ => ⟨S8x1024x16x64, .bf16⟩
  | .hbm, ⟨19, _⟩ => ⟨S8x16x1024x64, .bf16⟩
  | .hbm, ⟨20, _⟩ => ⟨S8x16x1024x64, .bf16⟩
  | .hbm, ⟨21, _⟩ => ⟨S8x1024x16x64, .bf16⟩
  | .hbm, ⟨22, _⟩ => ⟨S8x1024x1024, .bf16⟩
  | .hbm, ⟨23, _⟩ => ⟨S8x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x3072, .bf16⟩
  | .local _ .vmem, ⟨3, _⟩ => ⟨S1x3072, .f32⟩
  | .local _ .vmem, ⟨4, _⟩ => ⟨S1x512x3072, .bf16⟩
  | .local _ .vmem, ⟨5, _⟩ => ⟨S1x512x3072, .bf16⟩
  | .local _ .vmem, ⟨6, _⟩ => ⟨S1x16x1024x64, .bf16⟩
  | .local _ .vmem, ⟨7, _⟩ => ⟨S1x16x1024x64, .bf16⟩
  | .local _ .vmem, ⟨8, _⟩ => ⟨S1x16x1024x64, .bf16⟩
  | .local _ .vmem, ⟨9, _⟩ => ⟨S1x16x1024x64, .bf16⟩
  | .local _ .vmem, ⟨10, _⟩ => ⟨S1x16x1024x64, .bf16⟩
  | .local _ .vmem, ⟨11, _⟩ => ⟨S1x16x1024x64, .bf16⟩
  | .local _ .vmem, ⟨12, _⟩ => ⟨S1x16x1024x64, .bf16⟩
  | .local _ .vmem, ⟨13, _⟩ => ⟨S1x16x1024x64, .bf16⟩
  | .local _ .vmem, ⟨14, _⟩ => ⟨S1x512x1024, .bf16⟩
  | .local _ .vmem, ⟨15, _⟩ => ⟨S1x512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  shapeCasts_S3072_S1x3072 : S3072.ShapeCasts S1x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  slices_S8x1024x3072_S8x1024x1024_0_0_0 : S8x1024x3072.Slices ![0, 0, 0] S8x1024x1024
  slices_S8x1024x3072_S8x1024x1024_0_0_1024 : S8x1024x3072.Slices ![0, 0, 1024] S8x1024x1024
  slices_S8x1024x3072_S8x1024x1024_0_0_2048 : S8x1024x3072.Slices ![0, 0, 2048] S8x1024x1024
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  inb_S1x16x1024x64_S1x1x1024x64_0_0_0_0 : ∀ a, (![0, 0, 0, 0] : Fin 4 → Nat) a + S1x1x1024x64.size a ≤ S1x16x1024x64.size a
  h_S1x1x1024x64 : 0 < S1x1x1024x64.numel
  shapeCasts_S1x1x1024x64_S1024x64 : S1x1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  packedbf16_S1x16x1024x64_S1x1x1024x64_0_0_0_0 : (Rect.unit (s := S1x16x1024x64) ![0, 0, 0, 0] S1x1x1024x64.size inb_S1x16x1024x64_S1x1x1024x64_0_0_0_0).PackedRows (EltTy.packing .bf16)
  inb_S1x16x1024x64_S1x1x1024x64_0_1_0_0 : ∀ a, (![0, 1, 0, 0] : Fin 4 → Nat) a + S1x1x1024x64.size a ≤ S1x16x1024x64.size a
  packedbf16_S1x16x1024x64_S1x1x1024x64_0_1_0_0 : (Rect.unit (s := S1x16x1024x64) ![0, 1, 0, 0] S1x1x1024x64.size inb_S1x16x1024x64_S1x1x1024x64_0_1_0_0).PackedRows (EltTy.packing .bf16)
  inb_S1x16x1024x64_S1x1x1024x64_0_2_0_0 : ∀ a, (![0, 2, 0, 0] : Fin 4 → Nat) a + S1x1x1024x64.size a ≤ S1x16x1024x64.size a
  packedbf16_S1x16x1024x64_S1x1x1024x64_0_2_0_0 : (Rect.unit (s := S1x16x1024x64) ![0, 2, 0, 0] S1x1x1024x64.size inb_S1x16x1024x64_S1x1x1024x64_0_2_0_0).PackedRows (EltTy.packing .bf16)
  inb_S1x16x1024x64_S1x1x1024x64_0_3_0_0 : ∀ a, (![0, 3, 0, 0] : Fin 4 → Nat) a + S1x1x1024x64.size a ≤ S1x16x1024x64.size a
  packedbf16_S1x16x1024x64_S1x1x1024x64_0_3_0_0 : (Rect.unit (s := S1x16x1024x64) ![0, 3, 0, 0] S1x1x1024x64.size inb_S1x16x1024x64_S1x1x1024x64_0_3_0_0).PackedRows (EltTy.packing .bf16)
  inb_S1x16x1024x64_S1x1x1024x64_0_4_0_0 : ∀ a, (![0, 4, 0, 0] : Fin 4 → Nat) a + S1x1x1024x64.size a ≤ S1x16x1024x64.size a
  packedbf16_S1x16x1024x64_S1x1x1024x64_0_4_0_0 : (Rect.unit (s := S1x16x1024x64) ![0, 4, 0, 0] S1x1x1024x64.size inb_S1x16x1024x64_S1x1x1024x64_0_4_0_0).PackedRows (EltTy.packing .bf16)
  inb_S1x16x1024x64_S1x1x1024x64_0_5_0_0 : ∀ a, (![0, 5, 0, 0] : Fin 4 → Nat) a + S1x1x1024x64.size a ≤ S1x16x1024x64.size a
  packedbf16_S1x16x1024x64_S1x1x1024x64_0_5_0_0 : (Rect.unit (s := S1x16x1024x64) ![0, 5, 0, 0] S1x1x1024x64.size inb_S1x16x1024x64_S1x1x1024x64_0_5_0_0).PackedRows (EltTy.packing .bf16)
  inb_S1x16x1024x64_S1x1x1024x64_0_6_0_0 : ∀ a, (![0, 6, 0, 0] : Fin 4 → Nat) a + S1x1x1024x64.size a ≤ S1x16x1024x64.size a
  packedbf16_S1x16x1024x64_S1x1x1024x64_0_6_0_0 : (Rect.unit (s := S1x16x1024x64) ![0, 6, 0, 0] S1x1x1024x64.size inb_S1x16x1024x64_S1x1x1024x64_0_6_0_0).PackedRows (EltTy.packing .bf16)
  inb_S1x16x1024x64_S1x1x1024x64_0_7_0_0 : ∀ a, (![0, 7, 0, 0] : Fin 4 → Nat) a + S1x1x1024x64.size a ≤ S1x16x1024x64.size a
  packedbf16_S1x16x1024x64_S1x1x1024x64_0_7_0_0 : (Rect.unit (s := S1x16x1024x64) ![0, 7, 0, 0] S1x1x1024x64.size inb_S1x16x1024x64_S1x1x1024x64_0_7_0_0).PackedRows (EltTy.packing .bf16)
  inb_S1x16x1024x64_S1x1x1024x64_0_8_0_0 : ∀ a, (![0, 8, 0, 0] : Fin 4 → Nat) a + S1x1x1024x64.size a ≤ S1x16x1024x64.size a
  packedbf16_S1x16x1024x64_S1x1x1024x64_0_8_0_0 : (Rect.unit (s := S1x16x1024x64) ![0, 8, 0, 0] S1x1x1024x64.size inb_S1x16x1024x64_S1x1x1024x64_0_8_0_0).PackedRows (EltTy.packing .bf16)
  inb_S1x16x1024x64_S1x1x1024x64_0_9_0_0 : ∀ a, (![0, 9, 0, 0] : Fin 4 → Nat) a + S1x1x1024x64.size a ≤ S1x16x1024x64.size a
  packedbf16_S1x16x1024x64_S1x1x1024x64_0_9_0_0 : (Rect.unit (s := S1x16x1024x64) ![0, 9, 0, 0] S1x1x1024x64.size inb_S1x16x1024x64_S1x1x1024x64_0_9_0_0).PackedRows (EltTy.packing .bf16)
  inb_S1x16x1024x64_S1x1x1024x64_0_10_0_0 : ∀ a, (![0, 10, 0, 0] : Fin 4 → Nat) a + S1x1x1024x64.size a ≤ S1x16x1024x64.size a
  packedbf16_S1x16x1024x64_S1x1x1024x64_0_10_0_0 : (Rect.unit (s := S1x16x1024x64) ![0, 10, 0, 0] S1x1x1024x64.size inb_S1x16x1024x64_S1x1x1024x64_0_10_0_0).PackedRows (EltTy.packing .bf16)
  inb_S1x16x1024x64_S1x1x1024x64_0_11_0_0 : ∀ a, (![0, 11, 0, 0] : Fin 4 → Nat) a + S1x1x1024x64.size a ≤ S1x16x1024x64.size a
  packedbf16_S1x16x1024x64_S1x1x1024x64_0_11_0_0 : (Rect.unit (s := S1x16x1024x64) ![0, 11, 0, 0] S1x1x1024x64.size inb_S1x16x1024x64_S1x1x1024x64_0_11_0_0).PackedRows (EltTy.packing .bf16)
  inb_S1x16x1024x64_S1x1x1024x64_0_12_0_0 : ∀ a, (![0, 12, 0, 0] : Fin 4 → Nat) a + S1x1x1024x64.size a ≤ S1x16x1024x64.size a
  packedbf16_S1x16x1024x64_S1x1x1024x64_0_12_0_0 : (Rect.unit (s := S1x16x1024x64) ![0, 12, 0, 0] S1x1x1024x64.size inb_S1x16x1024x64_S1x1x1024x64_0_12_0_0).PackedRows (EltTy.packing .bf16)
  inb_S1x16x1024x64_S1x1x1024x64_0_13_0_0 : ∀ a, (![0, 13, 0, 0] : Fin 4 → Nat) a + S1x1x1024x64.size a ≤ S1x16x1024x64.size a
  packedbf16_S1x16x1024x64_S1x1x1024x64_0_13_0_0 : (Rect.unit (s := S1x16x1024x64) ![0, 13, 0, 0] S1x1x1024x64.size inb_S1x16x1024x64_S1x1x1024x64_0_13_0_0).PackedRows (EltTy.packing .bf16)
  inb_S1x16x1024x64_S1x1x1024x64_0_14_0_0 : ∀ a, (![0, 14, 0, 0] : Fin 4 → Nat) a + S1x1x1024x64.size a ≤ S1x16x1024x64.size a
  packedbf16_S1x16x1024x64_S1x1x1024x64_0_14_0_0 : (Rect.unit (s := S1x16x1024x64) ![0, 14, 0, 0] S1x1x1024x64.size inb_S1x16x1024x64_S1x1x1024x64_0_14_0_0).PackedRows (EltTy.packing .bf16)
  inb_S1x16x1024x64_S1x1x1024x64_0_15_0_0 : ∀ a, (![0, 15, 0, 0] : Fin 4 → Nat) a + S1x1x1024x64.size a ≤ S1x16x1024x64.size a
  packedbf16_S1x16x1024x64_S1x1x1024x64_0_15_0_0 : (Rect.unit (s := S1x16x1024x64) ![0, 15, 0, 0] S1x1x1024x64.size inb_S1x16x1024x64_S1x1x1024x64_0_15_0_0).PackedRows (EltTy.packing .bf16)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .bf16 = 32 ∨ (Rect.block (s := S8x1024x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S8x1024x3072.size a
  hwx0_3 : ∀ i : grid0.Coords, EltTy.bits .bf16 = 32 ∨ (Rect.block (s := S8x1024x3072) S1x512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x1024x64.size a ≤ S8x16x1024x64.size a
  hwx1_0 : ∀ i : grid1.Coords, EltTy.bits .bf16 = 32 ∨ (Rect.block (s := S8x16x1024x64) S1x16x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1024x64.size a ≤ S8x16x1024x64.size a
  hwx1_1 : ∀ i : grid1.Coords, EltTy.bits .bf16 = 32 ∨ (Rect.block (s := S8x16x1024x64) S1x16x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x1024x64.size a ≤ S8x16x1024x64.size a
  hwx1_2 : ∀ i : grid1.Coords, EltTy.bits .bf16 = 32 ∨ (Rect.block (s := S8x16x1024x64) S1x16x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1024x64.size a ≤ S8x16x1024x64.size a
  hwx1_3 : ∀ i : grid1.Coords, EltTy.bits .bf16 = 32 ∨ (Rect.block (s := S8x16x1024x64) S1x16x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S8x1024x1024.size a
  hwx2_0 : ∀ i : grid2.Coords, EltTy.bits .bf16 = 32 ∨ (Rect.block (s := S8x1024x1024) S1x512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x1024x1024.size a
  hwx2_3 : ∀ i : grid2.Coords, EltTy.bits .f32 = 32 ∨ (Rect.block (s := S8x1024x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x16x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x16x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x16x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x3072, .f32⟩
  | .hbm, ⟨6, _⟩ => ⟨S1x1x3072, .f32⟩
  | .hbm, ⟨7, _⟩ => ⟨S8x1024x3072, .f32⟩
  | .hbm, ⟨8, _⟩ => ⟨S8x1024x3072, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x1024x16x64, .f32⟩
  | .hbm, ⟨13, _⟩ => ⟨S8x16x1024x64, .f32⟩
  | .hbm, ⟨14, _⟩ => ⟨S8x1024x16x64, .f32⟩
  | .hbm, ⟨15, _⟩ => ⟨S8x16x1024x64, .f32⟩
  | .hbm, ⟨16, _⟩ => ⟨S8x1024x16x64, .f32⟩
  | .hbm, ⟨17, _⟩ => ⟨S8x16x1024x64, .f32⟩
  | .hbm, ⟨18, _⟩ => ⟨S8x16x1024x1024, .f32⟩
  | .hbm, ⟨19, _⟩ => ⟨S_, .f32⟩
  | .hbm, ⟨20, _⟩ => ⟨S_, .f32⟩
  | .hbm, ⟨21, _⟩ => ⟨S8x16x1024x1024, .f32⟩
  | .hbm, ⟨22, _⟩ => ⟨S8x16x1024x1024, .f32⟩
  | .hbm, ⟨23, _⟩ => ⟨S_, .f32⟩
  | .hbm, ⟨24, _⟩ => ⟨S8x16x1024, .f32⟩
  | .hbm, ⟨25, _⟩ => ⟨S_, .f32⟩
  | .hbm, ⟨26, _⟩ => ⟨S8x16x1024, .f32⟩
  | .hbm, ⟨27, _⟩ => ⟨S8x16x1024, .f32⟩
  | .hbm, ⟨28, _⟩ => ⟨S8x16x1024x1, .f32⟩
  | .hbm, ⟨29, _⟩ => ⟨S8x16x1024x1024, .f32⟩
  | .hbm, ⟨30, _⟩ => ⟨S8x16x1024x1024, .f32⟩
  | .hbm, ⟨31, _⟩ => ⟨S8x16x1024x1024, .f32⟩
  | .hbm, ⟨32, _⟩ => ⟨S_, .f32⟩
  | .hbm, ⟨33, _⟩ => ⟨S8x16x1024, .f32⟩
  | .hbm, ⟨34, _⟩ => ⟨S8x16x1024x1, .f32⟩
  | .hbm, ⟨35, _⟩ => ⟨S8x16x1024x1024, .f32⟩
  | .hbm, ⟨36, _⟩ => ⟨S8x16x1024x1024, .f32⟩
  | .hbm, ⟨37, _⟩ => ⟨S8x16x1024x64, .f32⟩
  | .hbm, ⟨38, _⟩ => ⟨S8x1024x16x64, .f32⟩
  | .hbm, ⟨39, _⟩ => ⟨S8x1024x1024, .f32⟩
  | .hbm, ⟨40, _⟩ => ⟨S8x1024x1024, .f32⟩
  | .hbm, ⟨41, _⟩ => ⟨S1x1x1024, .f32⟩
  | .hbm, ⟨42, _⟩ => ⟨S8x1024x1024, .f32⟩
  | .hbm, ⟨43, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  slices_S8x1024x3072_S8x1024x1024_0_0_0 : S8x1024x3072.Slices ![0, 0, 0] S8x1024x1024
  slices_S8x1024x3072_S8x1024x1024_0_0_1024 : S8x1024x3072.Slices ![0, 0, 1024] S8x1024x1024
  slices_S8x1024x3072_S8x1024x1024_0_0_2048 : S8x1024x3072.Slices ![0, 0, 2048] S8x1024x1024
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S1024x3072_S8x1024x3072_2_0_01_1_n_n_wf : DotDims.WF S8x1024x1024 S1024x3072 S8x1024x3072 [2] [0] [0, 1] [1] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_0_01_1_n_n_wf : DotDims.WF S8x1024x1024 S1024x1024 S8x1024x1024 [2] [0] [0, 1] [1] [] []

variable [Facts₀]

def dot_S8x1024x1024_S1024x3072_S8x1024x3072_2_0_01_1_n_n : DotDims S8x1024x1024 S1024x3072 S8x1024x3072 where
  lhsContracting := [2]
  rhsContracting := [0]
  lhsNonContracting := [0, 1]
  rhsNonContracting := [1]
  lhsBatch := []
  rhsBatch := []
  wf := dot_S8x1024x1024_S1024x3072_S8x1024x3072_2_0_01_1_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf

class Facts : Prop extends Facts₀ where

variable [Facts]
-- ==== Proof.RunValue.lean ====
/-
  The idealized kernel's run, with its result named.

  @main is six segments: a stretch of host operations, a kernel region, a stretch, a region, a stretch, a region. The
  buffer contents at each boundary are a fold from the launch memory (a stretch applies its operations; a region
  replaces its arrays by what its write-backs leave). Every weakly fair execution terminates without a fault, and in
  its final memory every buffer that is not scoped to a region holds the last boundary's contents: in particular the
  result buffer holds the last boundary's contents there, and the five argument arrays hold what they held at launch.
-/
import proofs.«126795_j32074815767300_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunValue

end
-- ==== Proof.ChainHost.lean ====
/-
  The host operations around the three regions of the idealized kernel, read back through the run's fold.

  Before the first region the arguments are rounded to bf16 (the identity on extended reals) and the two bias vectors
  are cast to rows. Between the first and second regions the projected array [8, 1024, 3072] is cut into its three
  column ranges, each cast to [8, 1024, 16, 64] and transposed to [8, 16, 1024, 64]: the query, key and value heads.
  Between the second and third regions the attention result is transposed back and cast to [8, 1024, 1024]. A buffer
  that no later operation and no region writes keeps its contents through the rest of the fold.
-/
import proofs.«126795_j32074815767300_2_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The five argument arrays as launched, as functions of an index. -/
abbrev A0 (c : Dev nD) : S8x1024x1024.Idx → EReal := m ((c.tc : Thread nD τ).loc main_arg0)
abbrev A1 (c : Dev nD) : S1024x3072.Idx → EReal := m ((c.tc : Thread nD τ).loc main_arg1)
abbrev A2 (c : Dev nD) : S3072.Idx → EReal := m ((c.tc : Thread nD τ).loc main_arg2)
abbrev A3 (c : Dev nD) : S1024x1024.Idx → EReal := m ((c.tc : Thread nD τ).loc main_arg3)
abbrev A4 (c : Dev nD) : S1024.Idx → EReal := m ((c.tc : Thread nD τ).loc main_arg4)

/-! ## Before the first region -/

theorem V1_v0 (c : Dev nD) : (V1 m ρ c main_v0 : S8x1024x1024.Idx → EReal) = A0 m c := by
  show StableHlo.after hostOps0 (W0 m ρ c) (Proc.devRef .tc main_v0) = _
  after_results
  rfl

theorem V1_v1 (c : Dev nD) : (V1 m ρ c main_v1 : S1024x3072.Idx → EReal) = A1 m c := by
  show StableHlo.after hostOps0 (W0 m ρ c) (Proc.devRef .tc main_v1) = _
  after_results
  rfl

theorem V1_v3 (c : Dev nD) : (V1 m ρ c main_v3 : S1x3072.Idx → EReal) = shapeCast S1x3072 (A2 m c) shapeCasts_S3072_S1x3072 := by
  show StableHlo.after hostOps0 (W0 m ρ c) (Proc.devRef .tc main_v3) = _
  after_results
  rfl

/-- The first bias row at column e is the bias vector at e. -/
theorem V1_v3_row (c : Dev nD) :
    (fun e : Fin 3072 => (V1 m ρ c main_v3 : S1x3072.Idx → EReal) (ix2 (0 : Fin 1) e)) = fun e => A2 m c (ix1 e) := by
  funext e
  rw [V1_v3]
  exact shapeCast_a_1a_apply (A2 m c) shapeCasts_S3072_S1x3072 0 e

/-! ## Between the first and second regions -/

theorem V3_v10 (c : Dev nD) : (V3 m ρ c main_v10 : S8x16x1024x64.Idx → EReal)
    = transpose S8x16x1024x64 [0, 2, 1, 3] (shapeCast S8x1024x16x64 (extractStridedSlice S8x1024x1024 ![0, 0, 0]
        (W2 m ρ c (Proc.devRef .tc main_v5)) slices_S8x1024x3072_S8x1024x1024_0_0_0) shapeCasts_S8x1024x1024_S8x1024x16x64)
        transposes_S8x1024x16x64_S8x16x1024x64_0_2_1_3 := by
  show StableHlo.after hostOps1 (W2 m ρ c) (Proc.devRef .tc main_v10) = _
  after_results
  rfl

theorem V3_v12 (c : Dev nD) : (V3 m ρ c main_v12 : S8x16x1024x64.Idx → EReal)
    = transpose S8x16x1024x64 [0, 2, 1, 3] (shapeCast S8x1024x16x64 (extractStridedSlice S8x1024x1024 ![0, 0, 1024]
        (W2 m ρ c (Proc.devRef .tc main_v5)) slices_S8x1024x3072_S8x1024x1024_0_0_1024) shapeCasts_S8x1024x1024_S8x1024x16x64)
        transposes_S8x1024x16x64_S8x16x1024x64_0_2_1_3 := by
  show StableHlo.after hostOps1 (W2 m ρ c) (Proc.devRef .tc main_v12) = _
  after_results
  rfl

theorem V3_v14 (c : Dev nD) : (V3 m ρ c main_v14 : S8x16x1024x64.Idx → EReal)
    = transpose S8x16x1024x64 [0, 2, 1, 3] (shapeCast S8x1024x16x64 (extractStridedSlice S8x1024x1024 ![0, 0, 2048]
        (W2 m ρ c (Proc.devRef .tc main_v5)) slices_S8x1024x3072_S8x1024x1024_0_0_2048) shapeCasts_S8x1024x1024_S8x1024x16x64)
        transposes_S8x1024x16x64_S8x16x1024x64_0_2_1_3 := by
  show StableHlo.after hostOps1 (W2 m ρ c) (Proc.devRef .tc main_v14) = _
  after_results
  rfl

/-! ## Between the second and third regions -/

theorem V5_v17 (c : Dev nD) : (V5 m ρ c main_v17 : S8x1024x1024.Idx → EReal)
    = shapeCast S8x1024x1024 (transpose S8x1024x16x64 [0, 2, 1, 3] (W4 m ρ c (Proc.devRef .tc main_v15))
        transposes_S8x16x1024x64_S8x1024x16x64_0_2_1_3) shapeCasts_S8x1024x16x64_S8x1024x1024 := by
  show StableHlo.after hostOps2 (W4 m ρ c) (Proc.devRef .tc main_v17) = _
  after_results
  rfl

/-- The rounded output weight reaches the third region as launched. -/
theorem V5_v2 (c : Dev nD) : (V5 m ρ c main_v2 : S1024x1024.Idx → EReal) = A3 m c := by
  show StableHlo.after hostOps2 (W4 m ρ c) (Proc.devRef .tc main_v2) = _
  after_results
  rw [W4_of_ne m ρ c main_v2 (by decide)]
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl

theorem V5_v4 (c : Dev nD) : (V5 m ρ c main_v4 : S1x1024.Idx → EReal) = shapeCast S1x1024 (A4 m c) shapeCasts_S1024_S1x1024 := by
  show StableHlo.after hostOps2 (W4 m ρ c) (Proc.devRef .tc main_v4) = _
  after_results
  rw [W4_of_ne m ρ c main_v4 (by decide)]
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl

/-- The second bias row at column e is the bias vector at e. -/
theorem V5_v4_row (c : Dev nD) :
    (fun e : Fin 1024 => (V5 m ρ c main_v4 : S1x1024.Idx → EReal) (ix2 (0 : Fin 1) e)) = fun e => A4 m c (ix1 e) := by
  funext e
  rw [V5_v4]
  exact shapeCast_a_1a_apply (A4 m c) shapeCasts_S1024_S1x1024 0 e

/-! ## The regions' output arrays at their exits -/

theorem W2_v5 (c : Dev nD) : W2 m ρ c (Proc.devRef .tc main_v5) = (dat0 (V1 m ρ) c).arrAt 3 cfg0.N := W2_arr m ρ c 3
theorem W4_v15 (c : Dev nD) : W4 m ρ c (Proc.devRef .tc main_v15) = (dat1 (V3 m ρ) c).arrAt 3 cfg1.N := W4_arr m ρ c 3
theorem W6_v18 (c : Dev nD) : W6 m ρ c (Proc.devRef .tc main_v18) = (dat2 (V5 m ρ) c).arrAt 3 cfg2.N := W6_arr m ρ c 3

end Cert.KernelIdeal.Chain

end
-- ==== Proof.Spec.lean ====
/-
  Multi-head attention over the extended reals, entry by entry.

  Three functions of whole arrays, each given by its value at an index:
  * `dense X W b`: every row of every batch of `X` times the matrix `W`, plus the bias row `b` — at (p, r, e) the sum
    over k of X(p, r, k) · W(k, e), plus b(e);
  * `softmaxAt s j`: the weight the softmax of the row `s` gives to entry j — e^(s j − M) over the sum of the e^(s k − M),
    M the largest entry of the row (taken from −∞);
  * `attn Q K V σ`: for batch p and head h, row i of the softmax of the scaled scores Q(p,h,i,·) · K(p,h,j,·) · σ,
    times the matrix V(p,h,·,·).
  The scale of the scores is written two ways in the two programs, a product with the pattern of 0.125 and a quotient
  by the square root of the pattern of 64; on every extended real they are one function (`div_sqrt_64`).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Rows times a matrix plus a bias row: at (p, r, e), the sum over k of X(p, r, k) · W(k, e), plus b(e). -/
def dense {B N K E : ℕ} (X : (⟨3, ![B, N, K]⟩ : Shape).Idx → EReal) (W : (⟨2, ![K, E]⟩ : Shape).Idx → EReal)
    (b : Fin E → EReal) : (⟨3, ![B, N, E]⟩ : Shape).Idx → EReal :=
  fun i => (∑ k : Fin K, X (ix3 (i 0) (i 1) k) * W (ix2 k (i 2))) + b (i 2)

theorem dense_apply {B N K E : ℕ} (X : (⟨3, ![B, N, K]⟩ : Shape).Idx → EReal) (W : (⟨2, ![K, E]⟩ : Shape).Idx → EReal)
    (b : Fin E → EReal) (p : Fin B) (r : Fin N) (e : Fin E) :
    dense X W b (ix3 p r e) = (∑ k : Fin K, X (ix3 p r k) * W (ix2 k e)) + b e := rfl

/-- The largest entry of a row, taken from −∞. -/
def rowMax {n : ℕ} (s : Fin n → EReal) : EReal := (Finset.univ : Finset (Fin n)).fold max ⊥ s

/-- The softmax weight of entry j of the row s. -/
def softmaxAt {n : ℕ} (s : Fin n → EReal) (j : Fin n) : EReal :=
  Ideal.div (Ideal.exp (s j - rowMax s)) (∑ k : Fin n, Ideal.exp (s k - rowMax s))

/-- The scaled score of query row i against key row j, in batch p and head h. -/
def score {B H N D : ℕ} (Q K : (⟨4, ![B, H, N, D]⟩ : Shape).Idx → EReal) (σ : EReal) (p : Fin B) (h : Fin H)
    (i j : Fin N) : EReal :=
  (∑ d : Fin D, Q (ix4 p h i d) * K (ix4 p h j d)) * σ

/-- Attention: at (p, h, i, d), the sum over j of the softmax weight of j in the row of scores of i, times V(p, h, j, d). -/
def attn {B H N D : ℕ} (Q K V : (⟨4, ![B, H, N, D]⟩ : Shape).Idx → EReal) (σ : EReal) :
    (⟨4, ![B, H, N, D]⟩ : Shape).Idx → EReal :=
  fun y => ∑ j : Fin N, softmaxAt (score Q K σ (y 0) (y 1) (y 2)) j * V (ix4 (y 0) (y 1) j (y 3))

theorem attn_apply {B H N D : ℕ} (Q K V : (⟨4, ![B, H, N, D]⟩ : Shape).Idx → EReal) (σ : EReal)
    (p : Fin B) (h : Fin H) (i : Fin N) (d : Fin D) :
    attn Q K V σ (ix4 p h i d) = ∑ j : Fin N, softmaxAt (score Q K σ p h i) j * V (ix4 p h j d) := rfl

/-! ## The constants of the scale -/

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of −∞ denotes the bottom of the extended reals. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- A quotient by the square root of 64 is the product with 1/8, on every extended real. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Attn

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.LibDenseLayer.lean ====
/-
  A dense layer with per-row scales, read at a row and a column, at the extended reals.

  Two arrangements of the same arithmetic are read here at an index (r, q) and found to be one function of the operands:
  the fused body of a row-block kernel — scale the rows of a block, multiply by a weight matrix on the matrix unit into a
  zero accumulator, add a bias row, clamp below at zero, then either scale the rows again or multiply by a second weight
  matrix and add a second bias row — and the same steps written as whole-array host operations (`dot_general`,
  `broadcast_in_dim` of the scale vectors and of the bias vectors). At the extended reals a change of float format is
  the identity and both products are the plain sum over the contracted coordinate, so no algebraic law is needed: both
  arrangements unfold to `hidAt` below, term by term.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«126795_j32074815767300_2_alg».proof.Proof.LibKeepdims

noncomputable section

namespace Cert.LibDenseLayer

open Idealize.ShloMosaic Idealize.ShloMosaic.ValueIdx Cert.LibKeepdims

/-! ## The layout operations of the two arrangements, read at coordinates -/

section Layout
variable {α : Type}

/-- A vector [a] placed in dimension 0 of a column [a, 1] reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column [a, 1] placed in dimensions (0, 1) of [a, b] reads, at (i, j), the column at (i, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- A vector [b] placed in dimension 1 of a row [1, b] reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row [1, b] placed in dimensions (0, 1) of [a, b] reads, at (i, j), the row at (0, j). -/
theorem broadcastInDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

end Layout

/-! ## The matrix unit's plain product into a zero accumulator -/

/-- The plain product of an m×k by a k×n matrix on the matrix unit, into the zero accumulator, read at (a, b), is the
    sum over the contracted coordinate of the products of the entries: the host's product of the same operands. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-! ## The layer, entry by entry -/

section Layer
variable {n d h c : ℕ}

/-- The hidden activation at row r and column q: the row of `A` scaled by its entry of the column `s`, multiplied by
    `W`, the bias row `b` added, clamped below at `z`. -/
def hidAt (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal) (z : EReal) (r : Fin n) (q : Fin h) : EReal :=
  max ((∑ k : Fin d, (A (ix2 r k) * s (ix2 r (0 : Fin 1))) * W (ix2 k q)) + b (ix2 (0 : Fin 1) q)) z

/-- The hidden activation with each row scaled again by its entry of the column `u`. -/
def scaledLayer (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) :
    (⟨2, ![n, h]⟩ : Shape).Idx → EReal :=
  fun i => hidAt A s W b z (i 0) (i 1) * u (ix2 (i 0) (0 : Fin 1))

/-- The hidden activation multiplied by a second matrix `Wf`, the bias row `bf` added. -/
def classifiedLayer (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) :
    (⟨2, ![n, c]⟩ : Shape).Idx → EReal :=
  fun i => (∑ k : Fin h, hidAt A s W b z (i 0) k * Wf (ix2 k (i 1))) + bf (ix2 (0 : Fin 1) (i 1))

theorem scaledLayer_apply (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) (r : Fin n) (q : Fin h) :
    scaledLayer A s u W b z (ix2 r q) = hidAt A s W b z r q * u (ix2 r (0 : Fin 1)) := rfl

theorem classifiedLayer_apply (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) (r : Fin n) (q : Fin c) :
    classifiedLayer A s W b Wf bf z (ix2 r q) = (∑ k : Fin h, hidAt A s W b z r k * Wf (ix2 k q)) + bf (ix2 (0 : Fin 1) q) := rfl

end Layer

/-! ## The two arrangements -/

section Arrangements
variable {n d h c : ℕ}

/-- THE FUSED BODY's hidden activation: rows scaled by a column, rounded to bf16 (the identity here), multiplied on the
    matrix unit by the rounded weight into a zero accumulator, the bias row added, clamped below at the zero splat. -/
theorem fusedHidden_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (r : Fin n) (q : Fin h) :
    (maximumf (addf (matmul (DotDims.plain n d h) none
          (truncf .bf16 (mulf (shapeCast ⟨2, ![n, d]⟩ x0 c0) (broadcastTo ⟨2, ![n, d]⟩ (shapeCast ⟨2, ![n, 1]⟩ x1 c1) b1)) lt)
          (truncf .bf16 x3 lt) (constant ⟨2, ![n, h]⟩ .f32 0x00000000#32))
        (broadcastTo ⟨2, ![n, h]⟩ (shapeCast ⟨2, ![1, h]⟩ x4 c4) b4))
      (broadcast ⟨2, ![n, h]⟩ (Scalar.ofBits .f32 0x00000000#32)) : FVec Ideal ⟨2, ![n, h]⟩ .f32) (ix2 r q)
    = hidAt x0 x1 x3 x4 (Ideal.ofBits .f32 0x00000000#32) r q := by
  simp only [shapeCast_self]
  rw [maximumf_apply, addf_apply, broadcast_apply, broadcastTo_1b_ab_apply, matmul_plain_apply]
  unfold hidAt
  refine congrArg (max · _) (congrArg (· + x4 (ix2 (0 : Fin 1) q)) (Finset.sum_congr rfl fun k _ => ?_))
  rw [truncf_apply, truncf_apply, mulf_apply, broadcastTo_a1_ab_apply]

/-- THE FUSED BODY that scales the rows again by a second column and rounds the result to bf16. -/
theorem fusedScaled_apply
    (x0 : FVec Ideal ⟨2, ![n, d]⟩ .f32) (x1 x2 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (b2 : (⟨2, ![n, 1]⟩ : Shape).Broadcasts ⟨2, ![n, h]⟩) (r : Fin n) (q : Fin h) :
    (truncf .bf16 (mulf (maximumf (addf (matmul (DotDims.plain n d h) none
            (truncf .bf16 (mulf (shapeCast ⟨2, ![n, d]⟩ x0 c0) (broadcastTo ⟨2, ![n, d]⟩ (shapeCast ⟨2, ![n, 1]⟩ x1 c1) b1)) lt)
            (truncf .bf16 x3 lt) (constant ⟨2, ![n, h]⟩ .f32 0x00000000#32))
          (broadcastTo ⟨2, ![n, h]⟩ (shapeCast ⟨2, ![1, h]⟩ x4 c4) b4))
        (broadcast ⟨2, ![n, h]⟩ (Scalar.ofBits .f32 0x00000000#32)))
      (broadcastTo ⟨2, ![n, h]⟩ (shapeCast ⟨2, ![n, 1]⟩ x2 c1) b2)) lt : FVec Ideal ⟨2, ![n, h]⟩ .bf16) (ix2 r q)
    = scaledLayer x0 x1 x2 x3 x4 (Ideal.ofBits .f32 0x00000000#32) (ix2 r q) := by
  rw [truncf_apply, mulf_apply, fusedHidden_apply, broadcastTo_a1_ab_apply, shapeCast_self, scaledLayer_apply]

/-- THE FUSED BODY that rounds the hidden activation to bf16, multiplies it on the matrix unit by a second rounded weight
    into a zero accumulator and adds a second bias row. -/
theorem fusedClassified_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32) (x5 : FVec Ideal ⟨2, ![h, c]⟩ .f32) (x6 : FVec Ideal ⟨2, ![1, c]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (c6 : (⟨2, ![1, c]⟩ : Shape).ShapeCasts ⟨2, ![1, c]⟩) (b6 : (⟨2, ![1, c]⟩ : Shape).Broadcasts ⟨2, ![n, c]⟩)
    (r : Fin n) (q : Fin c) :
    (addf (matmul (DotDims.plain n h c) none
        (truncf .bf16 (maximumf (addf (matmul (DotDims.plain n d h) none
              (truncf .bf16 (mulf (shapeCast ⟨2, ![n, d]⟩ x0 c0) (broadcastTo ⟨2, ![n, d]⟩ (shapeCast ⟨2, ![n, 1]⟩ x1 c1) b1)) lt)
              (truncf .bf16 x3 lt) (constant ⟨2, ![n, h]⟩ .f32 0x00000000#32))
            (broadcastTo ⟨2, ![n, h]⟩ (shapeCast ⟨2, ![1, h]⟩ x4 c4) b4))
          (broadcast ⟨2, ![n, h]⟩ (Scalar.ofBits .f32 0x00000000#32))) lt)
        (truncf .bf16 x5 lt) (constant ⟨2, ![n, c]⟩ .f32 0x00000000#32))
      (broadcastTo ⟨2, ![n, c]⟩ (shapeCast ⟨2, ![1, c]⟩ x6 c6) b6) : FVec Ideal ⟨2, ![n, c]⟩ .f32) (ix2 r q)
    = classifiedLayer x0 x1 x3 x4 x5 x6 (Ideal.ofBits .f32 0x00000000#32) (ix2 r q) := by
  rw [addf_apply, broadcastTo_1b_ab_apply, shapeCast_self x6, matmul_plain_apply, classifiedLayer_apply]
  refine congrArg (· + x6 (ix2 (0 : Fin 1) q)) (Finset.sum_congr rfl fun k _ => ?_)
  rw [truncf_apply, truncf_apply, fusedHidden_apply]

/-- THE HOST ARRANGEMENT's hidden activation: the rows scaled by a vector placed as a column and spread along the lanes,
    the host's product with the weight, the bias vector placed as a row and spread along the rows, clamped below at the
    zero constant spread over the array. -/
theorem hostHidden_apply
    (A : FVec Ideal ⟨2, ![n, d]⟩ .f32) (s : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩)
    (r : Fin n) (q : Fin h) :
    (maximumf (addf (Host.dotGeneral (DotDims.plain n d h) none
          (mulf A (broadcastInDim ⟨2, ![n, d]⟩ ![0, 1] g2 (broadcastInDim ⟨2, ![n, 1]⟩ ![0] g1 s))) W)
        (broadcastInDim ⟨2, ![n, h]⟩ ![0, 1] g4 (broadcastInDim ⟨2, ![1, h]⟩ ![1] g3 b)))
      (broadcastInDim ⟨2, ![n, h]⟩ ![] g5 (constant ⟨0, ![]⟩ .f32 0x00000000#32)) : FVec Ideal ⟨2, ![n, h]⟩ .f32) (ix2 r q)
    = hidAt A (shapeCast ⟨2, ![n, 1]⟩ s c1) W (shapeCast ⟨2, ![1, h]⟩ b c2) (Ideal.ofBits .f32 0x00000000#32) r q := by
  rw [maximumf_apply, addf_apply, StackMember.dotGeneral_plain_apply, broadcastInDim_1b_ab_apply, broadcastInDim_b_1b_apply]
  unfold hidAt
  rw [shapeCast_a_1a_apply]
  refine congrArg (max · _) (congrArg (· + b (ix1 q)) (Finset.sum_congr rfl fun k _ => ?_))
  rw [mulf_apply, broadcastInDim_a1_ab_apply, broadcastInDim_a_a1_apply, shapeCast_a_a1_apply]

/-- THE HOST ARRANGEMENT with the rows scaled again by a second vector: the same array as the fused body's. -/
theorem hostScaled_eq
    (A : FVec Ideal ⟨2, ![n, d]⟩ .f32) (s u : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g2' : (⟨2, ![n, 1]⟩ : Shape).BroadcastsInDim ⟨2, ![n, h]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩) :
    (mulf (maximumf (addf (Host.dotGeneral (DotDims.plain n d h) none
            (mulf A (broadcastInDim ⟨2, ![n, d]⟩ ![0, 1] g2 (broadcastInDim ⟨2, ![n, 1]⟩ ![0] g1 s))) W)
          (broadcastInDim ⟨2, ![n, h]⟩ ![0, 1] g4 (broadcastInDim ⟨2, ![1, h]⟩ ![1] g3 b)))
        (broadcastInDim ⟨2, ![n, h]⟩ ![] g5 (constant ⟨0, ![]⟩ .f32 0x00000000#32)))
      (broadcastInDim ⟨2, ![n, h]⟩ ![0, 1] g2' (broadcastInDim ⟨2, ![n, 1]⟩ ![0] g1 u)) : FVec Ideal ⟨2, ![n, h]⟩ .f32)
    = scaledLayer A (shapeCast ⟨2, ![n, 1]⟩ s c1) (shapeCast ⟨2, ![n, 1]⟩ u c1) W (shapeCast ⟨2, ![1, h]⟩ b c2)
        (Ideal.ofBits .f32 0x00000000#32) := by
  funext i
  obtain ⟨r, q, rfl⟩ : ∃ (r : Fin n) (q : Fin h), i = ix2 r q := ⟨i 0, i 1, eq_ix2 i⟩
  rw [mulf_apply, hostHidden_apply A s W b g1 g2 g3 g4 g5 c1 c2, broadcastInDim_a1_ab_apply, broadcastInDim_a_a1_apply,
    scaledLayer_apply, shapeCast_a_a1_apply]

/-- THE HOST ARRANGEMENT followed by the host's product with a second weight and a second bias vector: the same array as
    the fused body's. -/
theorem hostClassified_eq
    (A : FVec Ideal ⟨2, ![n, d]⟩ .f32) (s : FVec Ideal ⟨1, ![n]⟩ .f32) (W : FVec Ideal ⟨2, ![d, h]⟩ .f32) (b : FVec Ideal ⟨1, ![h]⟩ .f32)
    (Wf : FVec Ideal ⟨2, ![h, c]⟩ .f32) (bf : FVec Ideal ⟨1, ![c]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (g6 : (⟨1, ![c]⟩ : Shape).BroadcastsInDim ⟨2, ![1, c]⟩ ![1])
    (g7 : (⟨2, ![1, c]⟩ : Shape).BroadcastsInDim ⟨2, ![n, c]⟩ ![0, 1])
    (c1 : (⟨1, ![n]⟩ : Shape).ShapeCasts ⟨2, ![n, 1]⟩) (c2 : (⟨1, ![h]⟩ : Shape).ShapeCasts ⟨2, ![1, h]⟩)
    (c3 : (⟨1, ![c]⟩ : Shape).ShapeCasts ⟨2, ![1, c]⟩) :
    (addf (Host.dotGeneral (DotDims.plain n h c) none
        (maximumf (addf (Host.dotGeneral (DotDims.plain n d h) none
              (mulf A (broadcastInDim ⟨2, ![n, d]⟩ ![0, 1] g2 (broadcastInDim ⟨2, ![n, 1]⟩ ![0] g1 s))) W)
            (broadcastInDim ⟨2, ![n, h]⟩ ![0, 1] g4 (broadcastInDim ⟨2, ![1, h]⟩ ![1] g3 b)))
          (broadcastInDim ⟨2, ![n, h]⟩ ![] g5 (constant ⟨0, ![]⟩ .f32 0x00000000#32))) Wf)
      (broadcastInDim ⟨2, ![n, c]⟩ ![0, 1] g7 (broadcastInDim ⟨2, ![1, c]⟩ ![1] g6 bf)) : FVec Ideal ⟨2, ![n, c]⟩ .f32)
    = classifiedLayer A (shapeCast ⟨2, ![n, 1]⟩ s c1) W (shapeCast ⟨2, ![1, h]⟩ b c2) Wf (shapeCast ⟨2, ![1, c]⟩ bf c3)
        (Ideal.ofBits .f32 0x00000000#32) := by
  funext i
  obtain ⟨r, q, rfl⟩ : ∃ (r : Fin n) (q : Fin c), i = ix2 r q := ⟨i 0, i 1, eq_ix2 i⟩
  rw [addf_apply, StackMember.dotGeneral_plain_apply, broadcastInDim_1b_ab_apply, broadcastInDim_b_1b_apply,
    classifiedLayer_apply, shapeCast_a_1a_apply]
  refine congrArg (· + bf (ix1 q)) (Finset.sum_congr rfl fun k _ => ?_)
  rw [hostHidden_apply A s W b g1 g2 g3 g4 g5 c1 c2]

end Arrangements

end Cert.LibDenseLayer

end
-- ==== Proof.DenseKernel.lean ====
/-
  The two dense regions of the kernel, read off the frame: each region's output array, once all of its blocks are
  written back, is rows times a matrix plus a bias row of the arrays the region finds on entry.

  Three steps per region. The body's payload at row r and column e of a block is the sum over k of the block's
  entry (r, k) times the weight's entry (k, e), plus the bias row's entry e: the casts between [1, a, b] and [a, b] drop
  or add the unit coordinate, the bias row is spread along the rows, the product on the matrix unit into a zero
  accumulator is the plain sum over the contracted coordinate, and a change of float format is the identity at the
  extended reals. What a grid point writes back is its block of that function of the whole arrays: the point (b, n)
  reads rows 512 n … 512 n + 511 of batch b, all of the weight and all of the bias row. The blocks cover the array: row
  r of batch b is in the block of point 2 b + r / 512.
-/
import proofs.«126795_j32074815767300_2_alg».proof.Proof.Gen.KernelIdeal.Frame
import proofs.«126795_j32074815767300_2_alg».proof.Proof.Spec
import proofs.«126795_j32074815767300_2_alg».proof.Proof.LibDenseLayer
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.DenseValue

open Cert.KernelIdeal Cert.KernelIdeal.Gen

/-! ## The body's arithmetic at a row and a column -/

/-- A block [1, m, k] cast to its matrix, multiplied on the matrix unit by a [k, n] matrix into the zero accumulator,
    a bias row [1, n] spread along the rows added, cast back to [1, m, n]: at (0, r, e) the sum over j of
    x0(0, r, j) · x1(j, e), plus x2(0, e). -/
theorem denseBody_apply {m k n : ℕ} {φ₁ φ₂ : FTy}
    (x0 : FVec Ideal ⟨3, ![1, m, k]⟩ φ₁) (x1 : FVec Ideal ⟨2, ![k, n]⟩ φ₂) (x2 : FVec Ideal ⟨2, ![1, n]⟩ .f32)
    (c0 : (⟨3, ![1, m, k]⟩ : Shape).ShapeCasts ⟨2, ![m, k]⟩) (c1 : (⟨2, ![k, n]⟩ : Shape).ShapeCasts ⟨2, ![k, n]⟩)
    (c2 : (⟨2, ![1, n]⟩ : Shape).ShapeCasts ⟨2, ![1, n]⟩) (b2 : (⟨2, ![1, n]⟩ : Shape).Broadcasts ⟨2, ![m, n]⟩)
    (c3 : (⟨2, ![m, n]⟩ : Shape).ShapeCasts ⟨3, ![1, m, n]⟩) (r : Fin m) (e : Fin n) :
    (shapeCast ⟨3, ![1, m, n]⟩
        (addf (matmul (DotDims.plain m k n) none (shapeCast ⟨2, ![m, k]⟩ x0 c0) (shapeCast ⟨2, ![k, n]⟩ x1 c1)
            (constant ⟨2, ![m, n]⟩ .f32 0x00000000#32))
          (broadcastTo ⟨2, ![m, n]⟩ (shapeCast ⟨2, ![1, n]⟩ x2 c2) b2)) c3 : FVec Ideal ⟨3, ![1, m, n]⟩ .f32)
      (ix3 (0 : Fin 1) r e)
    = (∑ j : Fin k, x0 (ix3 (0 : Fin 1) r j) * x1 (ix2 j e)) + x2 (ix2 (0 : Fin 1) e) := by
  rw [shapeCast_ab_1ab_apply, addf_apply, broadcastTo_1b_ab_apply, shapeCast_self x2, Cert.LibDenseLayer.matmul_plain_apply]
  refine congrArg (· + x2 (ix2 (0 : Fin 1) e)) (Finset.sum_congr rfl fun j _ => ?_)
  rw [shapeCast_1ab_ab_apply, shapeCast_self x1]

/-- The same with the sum rounded to a narrower format before the cast back: the rounding is the identity. -/
theorem denseBodyTrunc_apply {m k n : ℕ} {φ₁ φ₂ ψ : FTy}
    (x0 : FVec Ideal ⟨3, ![1, m, k]⟩ φ₁) (x1 : FVec Ideal ⟨2, ![k, n]⟩ φ₂) (x2 : FVec Ideal ⟨2, ![1, n]⟩ .f32)
    (c0 : (⟨3, ![1, m, k]⟩ : Shape).ShapeCasts ⟨2, ![m, k]⟩) (c1 : (⟨2, ![k, n]⟩ : Shape).ShapeCasts ⟨2, ![k, n]⟩)
    (c2 : (⟨2, ![1, n]⟩ : Shape).ShapeCasts ⟨2, ![1, n]⟩) (b2 : (⟨2, ![1, n]⟩ : Shape).Broadcasts ⟨2, ![m, n]⟩)
    (lt : ψ.bits < FTy.bits .f32)
    (c3 : (⟨2, ![m, n]⟩ : Shape).ShapeCasts ⟨3, ![1, m, n]⟩) (r : Fin m) (e : Fin n) :
    (shapeCast ⟨3, ![1, m, n]⟩
        (truncf ψ (addf (matmul (DotDims.plain m k n) none (shapeCast ⟨2, ![m, k]⟩ x0 c0) (shapeCast ⟨2, ![k, n]⟩ x1 c1)
            (constant ⟨2, ![m, n]⟩ .f32 0x00000000#32))
          (broadcastTo ⟨2, ![m, n]⟩ (shapeCast ⟨2, ![1, n]⟩ x2 c2) b2)) lt) c3 : FVec Ideal ⟨3, ![1, m, n]⟩ ψ)
      (ix3 (0 : Fin 1) r e)
    = (∑ j : Fin k, x0 (ix3 (0 : Fin 1) r j) * x1 (ix2 j e)) + x2 (ix2 (0 : Fin 1) e) := by
  rw [shapeCast_ab_1ab_apply, truncf_apply, addf_apply, broadcastTo_1b_ab_apply, shapeCast_self x2, Cert.LibDenseLayer.matmul_plain_apply]
  refine congrArg (· + x2 (ix2 (0 : Fin 1) e)) (Finset.sum_congr rfl fun j _ => ?_)
  rw [shapeCast_1ab_ab_apply, shapeCast_self x1]

/-- Region 0's payload at row r and column e of its block. -/
theorem pay0_apply (x0 : Vec Ideal S1x512x1024 .bf16) (x1 : Vec Ideal S1024x3072 .bf16) (x2 : Vec Ideal S1x3072 .f32)
    (r : Fin 512) (e : Fin 3072) :
    Gen.k0_pay1 (F := Ideal) x0 x1 x2 (ix3 (0 : Fin 1) r e)
      = (∑ k : Fin 1024, x0 (ix3 (0 : Fin 1) r k) * x1 (ix2 k e)) + x2 (ix2 (0 : Fin 1) e) :=
  denseBodyTrunc_apply (m := 512) (k := 1024) (n := 3072) x0 x1 x2 _ _ _ _ _ _ r e

/-- Region 2's payload at row r and column e of its block. -/
theorem pay2_apply (x0 : Vec Ideal S1x512x1024 .bf16) (x1 : Vec Ideal S1024x1024 .bf16) (x2 : Vec Ideal S1x1024 .f32)
    (r : Fin 512) (e : Fin 1024) :
    Gen.k2_pay1 (F := Ideal) x0 x1 x2 (ix3 (0 : Fin 1) r e)
      = (∑ k : Fin 1024, x0 (ix3 (0 : Fin 1) r k) * x1 (ix2 k e)) + x2 (ix2 (0 : Fin 1) e) :=
  denseBody_apply (m := 512) (k := 1024) (n := 1024) x0 x1 x2 _ _ _ _ _ r e

/-! # Region 0: the query, key and value projection

## What a grid point writes back -/

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- Region 0's output array as one function of the arrays the region finds. -/
abbrev G0 (c : Dev nD) : (⟨3, ![8, 1024, 3072]⟩ : Shape).Idx → EReal :=
  Cert.Attn.dense (V c main_v0) (V c main_v1) (fun e => V c main_v3 (ix2 (0 : Fin 1) e))

/-- The blocks' index maps over the grid: the point t = (b, n) takes block (b, n, 0) of the rows and of the output,
    and the whole weight and bias row. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0 :=
  (by decide +kernel : ∀ t : Fin grid0.N, _)

/-- Entry (0, r, e) of what point t computes from its three input blocks is the dense function of the whole arrays at
    (p, q, e), where p = t / 2 is the point's batch and q = 512 (t mod 2) + r its row. -/
theorem point0_apply (c : Dev nD) (t : Fin cfg0.N) (r : Fin 512) (e : Fin 3072) (p : Fin 8) (q : Fin 1024)
    (hp : p.val = t.val / 2) (hq : q.val = t.val % 2 * 512 + r.val) :
    Gen.k0_pay1 (F := Ideal) (Gen.iblk0 V c 0 t) (Gen.iblk0 V c 1 t) (Gen.iblk0 V c 2 t) (ix3 (0 : Fin 1) r e)
      = G0 V c (ix3 p q e) := by
  obtain ⟨e0, e1, e2, e3, e4, e5, e6, -, -, -⟩ := idx_facts0 t
  refine (pay0_apply _ _ _ r e).trans ?_
  have hb : Gen.iblk0 V c 2 t (ix2 (0 : Fin 1) e) = V c main_v3 (ix2 (0 : Fin 1) e) := by
    show V c main_v3 (((cfg0.win 2).blk t).view.emb (ix2 (0 : Fin 1) e)) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 3072 + 1 * e.val = e.val; omega
  have hx : ∀ k : Fin 1024, Gen.iblk0 V c 0 t (ix3 (0 : Fin 1) r k) = V c main_v0 (ix3 p q k) := fun k => by
    show V c main_v0 (((cfg0.win 0).blk t).view.emb (ix3 (0 : Fin 1) r k)) = _
    refine congrArg (V c main_v0) (funext fun a => Fin.ext ?_)
    match a with
    | ⟨0, _⟩ => show win0_0.index t (0 : Fin 3) * 1 + 1 * 0 = p.val; omega
    | ⟨1, _⟩ => show win0_0.index t (1 : Fin 3) * 512 + 1 * r.val = q.val; omega
    | ⟨2, _⟩ => show win0_0.index t (2 : Fin 3) * 1024 + 1 * k.val = k.val; omega
  have hw : ∀ k : Fin 1024, Gen.iblk0 V c 1 t (ix2 k e) = V c main_v1 (ix2 k e) := fun k => by
    show V c main_v1 (((cfg0.win 1).blk t).view.emb (ix2 k e)) = _
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 3072 + 1 * e.val = e.val; omega
  rw [hb]
  exact (congrArg (· + V c main_v3 (ix2 (0 : Fin 1) e)) (Finset.sum_congr rfl fun k _ => by rw [hx k, hw k])).trans
    (Cert.Attn.dense_apply (V c main_v0) (V c main_v1) (fun e => V c main_v3 (ix2 (0 : Fin 1) e)) p q e).symm

/-- What point t writes back is its block of the dense function of the whole arrays. -/
theorem flushed0_eq (c : Dev nD) (t : Fin cfg0.N) :
    (Gen.dat0 (F := Ideal) V c).flushed 3 t = ((cfg0.win 3).blk t).view.read (Elt Ideal) (G0 V c) := by
  show (cfg0.win 3).cut (grid0.coords t) ((Gen.dat0 V c).after 3 t) = _
  rw [Gen.after0_3]
  unfold Gen.out0_3
  rw [View.canon_unit_zero zero3]
  simp only [View.ld_unit_zero (S := S1x512x1024) zero3, View.ld_unit_zero (S := S1024x3072) zero2, View.ld_unit_zero (S := S1x3072) zero2]
  funext j
  show Gen.k0_pay1 (Gen.iblk0 V c 0 t) (Gen.iblk0 V c 1 t) (Gen.iblk0 V c 2 t) j = G0 V c (((cfg0.win 3).blk t).view.emb j)
  obtain ⟨-, -, -, -, -, -, -, e7, e8, e9⟩ := idx_facts0 t
  have ht : t.val < 16 := lt_of_lt_of_eq t.isLt (show cfg0.N = 16 from N_0)
  have h0 : (j 0).val < 1 := (j 0).isLt
  have h1 : (j 1).val < 512 := (j 1).isLt
  have h2 : (j 2).val < 3072 := (j 2).isLt
  have hL : j = ix3 (0 : Fin 1) (j 1) (j 2) := funext fun a => Fin.ext (by
    match a with
    | ⟨0, _⟩ => show (j 0).val = 0; omega
    | ⟨1, _⟩ => rfl
    | ⟨2, _⟩ => rfl)
  refine (congrArg (Gen.k0_pay1 (Gen.iblk0 V c 0 t) (Gen.iblk0 V c 1 t) (Gen.iblk0 V c 2 t)) hL).trans
    ((point0_apply V c t (j 1) (j 2) ⟨t.val / 2, by omega⟩ ⟨t.val % 2 * 512 + (j 1).val, by omega⟩ rfl rfl).trans
      (congrArg (G0 V c) (funext fun a => Fin.ext ?_)))
  match a with
  | ⟨0, _⟩ => show t.val / 2 = win0_3.index t (0 : Fin 3) * 1 + 1 * (j 0).val; omega
  | ⟨1, _⟩ => show t.val % 2 * 512 + (j 1).val = win0_3.index t (1 : Fin 3) * 512 + 1 * (j 1).val; omega
  | ⟨2, _⟩ => show (j 2).val = win0_3.index t (2 : Fin 3) * 3072 + 1 * (j 2).val; omega

/-! ## The blocks cover the array -/

/-- An index of the output array is in point t's block iff each coordinate is in the block's range on its axis. -/
theorem mem_blk0 (t : Fin cfg0.N) (i : S8x1024x3072.Idx) :
    i ∈ ((cfg0.win 3).blk t).view.set ↔ ∀ a : Fin 3, win0_3.index t a * S1x512x3072.size a ≤ (i a).val
      ∧ (i a).val < win0_3.index t a * S1x512x3072.size a + S1x512x3072.size a := by
  show i ∈ ((View.whole main_v5).slice (win0_3.rect t)).set ↔ _
  rw [View.set_slice_whole, Rect.mem_set_unit]
  exact Iff.rfl

/-- Row r of batch b is in the block of the point 2 b + r / 512, and every point writes its block back. -/
theorem cover0 (i : S8x1024x3072.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 3072 := (i 2).isLt
  have hN : cfg0.N = 16 := N_0
  obtain ⟨t, ht⟩ : ∃ t : Fin cfg0.N, t.val = (i 0).val * 2 + (i 1).val / 512 :=
    ⟨⟨(i 0).val * 2 + (i 1).val / 512, by rw [hN]; omega⟩, rfl⟩
  obtain ⟨-, -, -, -, -, -, -, e7, e8, e9⟩ := idx_facts0 t
  refine ⟨t, Gen.flush0_3 t, ?_⟩
  rw [mem_blk0]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 3072 ≤ (i 2).val ∧ (i 2).val < win0_3.index t (2 : Fin 3) * 3072 + 3072
    omega

/-! ## The array after the region -/

/-- REGION 0: the output array, once every point has written its block back, is the rows of the first array times the
    second plus the row of the third, as the region finds them. -/
theorem region0_value (c : Dev nD) :
    ((Gen.dat0 (F := Ideal) V c).arrAt 3 cfg0.N : (⟨3, ![8, 1024, 3072]⟩ : Shape).Idx → EReal)
      = Cert.Attn.dense (V c main_v0) (V c main_v1) (fun e => V c main_v3 (ix2 (0 : Fin 1) e)) :=
  (Gen.dat0 (F := Ideal) V c).arrAt_eq_of_cover 3 (G0 V c) (fun t _ => flushed0_eq V c t) cover0

/-! # Region 2: the output projection -/

/-- Region 2's output array as one function of the arrays the region finds. -/
abbrev G2 (c : Dev nD) : (⟨3, ![8, 1024, 1024]⟩ : Shape).Idx → EReal :=
  Cert.Attn.dense (V c main_v17) (V c main_v2) (fun e => V c main_v4 (ix2 (0 : Fin 1) e))

/-- The blocks' index maps over the grid: the point t = (b, n) takes block (b, n, 0) of the rows and of the output,
    and the whole weight and bias row. -/
theorem idx_facts2 : ∀ t : Fin cfg2.N,
    win2_0.index t (0 : Fin 3) = t.val / 2 ∧ win2_0.index t (1 : Fin 3) = t.val % 2 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val / 2 ∧ win2_3.index t (1 : Fin 3) = t.val % 2 ∧ win2_3.index t (2 : Fin 3) = 0 :=
  (by decide +kernel : ∀ t : Fin grid2.N, _)

/-- Entry (0, r, e) of what point t computes from its three input blocks is the dense function of the whole arrays at
    (p, q, e), where p = t / 2 is the point's batch and q = 512 (t mod 2) + r its row. -/
theorem point2_apply (c : Dev nD) (t : Fin cfg2.N) (r : Fin 512) (e : Fin 1024) (p : Fin 8) (q : Fin 1024)
    (hp : p.val = t.val / 2) (hq : q.val = t.val % 2 * 512 + r.val) :
    Gen.k2_pay1 (F := Ideal) (Gen.iblk2 V c 0 t) (Gen.iblk2 V c 1 t) (Gen.iblk2 V c 2 t) (ix3 (0 : Fin 1) r e)
      = G2 V c (ix3 p q e) := by
  obtain ⟨e0, e1, e2, e3, e4, e5, e6, -, -, -⟩ := idx_facts2 t
  refine (pay2_apply _ _ _ r e).trans ?_
  have hb : Gen.iblk2 V c 2 t (ix2 (0 : Fin 1) e) = V c main_v4 (ix2 (0 : Fin 1) e) := by
    show V c main_v4 (((cfg2.win 2).blk t).view.emb (ix2 (0 : Fin 1) e)) = _
    refine congrArg (V c main_v4) (funext fun a => Fin.ext ?_)
    match a with
    | ⟨0, _⟩ => show win2_2.index t (0 : Fin 2) * 1 + 1 * 0 = 0; omega
    | ⟨1, _⟩ => show win2_2.index t (1 : Fin 2) * 1024 + 1 * e.val = e.val; omega
  have hx : ∀ k : Fin 1024, Gen.iblk2 V c 0 t (ix3 (0 : Fin 1) r k) = V c main_v17 (ix3 p q k) := fun k => by
    show V c main_v17 (((cfg2.win 0).blk t).view.emb (ix3 (0 : Fin 1) r k)) = _
    refine congrArg (V c main_v17) (funext fun a => Fin.ext ?_)
    match a with
    | ⟨0, _⟩ => show win2_0.index t (0 : Fin 3) * 1 + 1 * 0 = p.val; omega
    | ⟨1, _⟩ => show win2_0.index t (1 : Fin 3) * 512 + 1 * r.val = q.val; omega
    | ⟨2, _⟩ => show win2_0.index t (2 : Fin 3) * 1024 + 1 * k.val = k.val; omega
  have hw : ∀ k : Fin 1024, Gen.iblk2 V c 1 t (ix2 k e) = V c main_v2 (ix2 k e) := fun k => by
    show V c main_v2 (((cfg2.win 1).blk t).view.emb (ix2 k e)) = _
    refine congrArg (V c main_v2) (funext fun a => Fin.ext ?_)
    match a with
    | ⟨0, _⟩ => show win2_1.index t (0 : Fin 2) * 1024 + 1 * k.val = k.val; omega
    | ⟨1, _⟩ => show win2_1.index t (1 : Fin 2) * 1024 + 1 * e.val = e.val; omega
  rw [hb]
  exact (congrArg (· + V c main_v4 (ix2 (0 : Fin 1) e)) (Finset.sum_congr rfl fun k _ => by rw [hx k, hw k])).trans
    (Cert.Attn.dense_apply (V c main_v17) (V c main_v2) (fun e => V c main_v4 (ix2 (0 : Fin 1) e)) p q e).symm

/-- What point t writes back is its block of the dense function of the whole arrays. -/
theorem flushed2_eq (c : Dev nD) (t : Fin cfg2.N) :
    (Gen.dat2 (F := Ideal) V c).flushed 3 t = ((cfg2.win 3).blk t).view.read (Elt Ideal) (G2 V c) := by
  show (cfg2.win 3).cut (grid2.coords t) ((Gen.dat2 V c).after 3 t) = _
  rw [Gen.after2_3]
  unfold Gen.out2_3
  rw [View.canon_unit_zero zero3]
  simp only [View.ld_unit_zero (S := S1x512x1024) zero3, View.ld_unit_zero (S := S1024x1024) zero2, View.ld_unit_zero (S := S1x1024) zero2]
  funext j
  show Gen.k2_pay1 (Gen.iblk2 V c 0 t) (Gen.iblk2 V c 1 t) (Gen.iblk2 V c 2 t) j = G2 V c (((cfg2.win 3).blk t).view.emb j)
  obtain ⟨-, -, -, -, -, -, -, e7, e8, e9⟩ := idx_facts2 t
  have ht : t.val < 16 := lt_of_lt_of_eq t.isLt (show cfg2.N = 16 from N_2)
  have h0 : (j 0).val < 1 := (j 0).isLt
  have h1 : (j 1).val < 512 := (j 1).isLt
  have h2 : (j 2).val < 1024 := (j 2).isLt
  have hL : j = ix3 (0 : Fin 1) (j 1) (j 2) := funext fun a => Fin.ext (by
    match a with
    | ⟨0, _⟩ => show (j 0).val = 0; omega
    | ⟨1, _⟩ => rfl
    | ⟨2, _⟩ => rfl)
  refine (congrArg (Gen.k2_pay1 (Gen.iblk2 V c 0 t) (Gen.iblk2 V c 1 t) (Gen.iblk2 V c 2 t)) hL).trans
    ((point2_apply V c t (j 1) (j 2) ⟨t.val / 2, by omega⟩ ⟨t.val % 2 * 512 + (j 1).val, by omega⟩ rfl rfl).trans
      (congrArg (G2 V c) (funext fun a => Fin.ext ?_)))
  match a with
  | ⟨0, _⟩ => show t.val / 2 = win2_3.index t (0 : Fin 3) * 1 + 1 * (j 0).val; omega
  | ⟨1, _⟩ => show t.val % 2 * 512 + (j 1).val = win2_3.index t (1 : Fin 3) * 512 + 1 * (j 1).val; omega
  | ⟨2, _⟩ => show (j 2).val = win2_3.index t (2 : Fin 3) * 1024 + 1 * (j 2).val; omega

/-- An index of the output array is in point t's block iff each coordinate is in the block's range on its axis. -/
theorem mem_blk2 (t : Fin cfg2.N) (i : S8x1024x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v18).slice (win2_3.rect t)).set ↔ _
  rw [View.set_slice_whole, Rect.mem_set_unit]
  exact Iff.rfl

/-- Row r of batch b is in the block of the point 2 b + r / 512, and every point writes its block back. -/
theorem cover2 (i : S8x1024x1024.Idx) :
    ∃ t : Fin cfg2.N, (cfg2.win 3).flush t = true ∧ i ∈ ((cfg2.win 3).blk t).view.set := by
  have h0 : (i 0).val < 8 := (i 0).isLt
  have h1 : (i 1).val < 1024 := (i 1).isLt
  have h2 : (i 2).val < 1024 := (i 2).isLt
  have hN : cfg2.N = 16 := N_2
  obtain ⟨t, ht⟩ : ∃ t : Fin cfg2.N, t.val = (i 0).val * 2 + (i 1).val / 512 :=
    ⟨⟨(i 0).val * 2 + (i 1).val / 512, by rw [hN]; omega⟩, rfl⟩
  obtain ⟨-, -, -, -, -, -, -, e7, e8, e9⟩ := idx_facts2 t
  refine ⟨t, Gen.flush2_3 t, ?_⟩
  rw [mem_blk2]
  intro a
  match a with
  | ⟨0, _⟩ =>
    show win2_3.index t (0 : Fin 3) * 1 ≤ (i 0).val ∧ (i 0).val < win2_3.index t (0 : Fin 3) * 1 + 1
    omega
  | ⟨1, _⟩ =>
    show win2_3.index t (1 : Fin 3) * 512 ≤ (i 1).val ∧ (i 1).val < win2_3.index t (1 : Fin 3) * 512 + 512
    omega
  | ⟨2, _⟩ =>
    show win2_3.index t (2 : Fin 3) * 1024 ≤ (i 2).val ∧ (i 2).val < win2_3.index t (2 : Fin 3) * 1024 + 1024
    omega

/-- REGION 2: the output array, once every point has written its block back, is the rows of the first array times the
    second plus the row of the third, as the region finds them. -/
theorem region2_value (c : Dev nD) :
    ((Gen.dat2 (F := Ideal) V c).arrAt 3 cfg2.N : (⟨3, ![8, 1024, 1024]⟩ : Shape).Idx → EReal)
      = Cert.Attn.dense (V c main_v17) (V c main_v2) (fun e => V c main_v4 (ix2 (0 : Fin 1) e)) :=
  (Gen.dat2 (F := Ideal) V c).arrAt_eq_of_cover 3 (G2 V c) (fun t _ => flushed2_eq V c t) cover2

end Cert.KernelIdeal.DenseValue

end
-- ==== Proof.LibSoftmaxRow.lean ====
/-
  One head of attention on two-axis blocks, read at a row and a column, at the extended reals.

  * The product of an m×k matrix with the TRANSPOSE of an n×k matrix on the matrix unit, into the zero accumulator,
    read at (a, b), is the sum over c of A(a, c) · B(b, c).
  * A reduction of an n×k matrix along its rows by the maximum from −∞, read at row i, is the largest entry of the row;
    by the sum from zero, the sum of the row.
  * The softmax weights as a kernel body writes them — subtract the row maximum kept as a column, exponentiate, divide by
    the row sum kept as a column — read at (i, j), are the softmax weight of entry j of row i.
-/
import Idealize.ShloMosaic.Lib.Pipeline.Value
import Idealize.ShloMosaic.Lib.ValueIdx
import Idealize.ShloMosaic.PureOps.Ideal.Laws
import proofs.«126795_j32074815767300_2_alg».proof.Proof.LibKeepdims
import proofs.«126795_j32074815767300_2_alg».proof.Proof.Spec

noncomputable section

namespace Cert.LibSoftmaxRow

open Idealize.ShloMosaic Idealize.ShloMosaic.ValueIdx Cert.LibKeepdims Cert.Attn

/-- An m×k matrix times the transpose of an n×k matrix, into the zero accumulator, at (a, b): the sum over the shared
    coordinate c of A(a, c) · B(b, c). -/
theorem matmul_transposedRhs_apply {m k n : ℕ} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

section Rows
variable {n k : ℕ}

/-- Row i of an n×k matrix with the column coordinate c inserted is the index (i, c). -/
theorem lift_row (h : (⟨2, ![n, k]⟩ : Shape).Reduces [1] ⟨1, ![n]⟩) (i : Fin n) (c : Fin k) :
    h.lift (ix1 i) c = ix2 i c := by
  funext ax; apply Fin.ext
  match ax with
  | ⟨0, _⟩ => rfl
  | ⟨1, _⟩ => rfl

/-- The row maximum from −∞ of an n×k matrix, at row i, is the largest entry of the row. -/
theorem rowMax_apply (S : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ) (i : Fin n) :
    multiReduction .maximumf [1] ⟨1, ![n]⟩ S 0xFF800000#32 h hφ hacc (ix1 i) = rowMax fun c : Fin k => S (ix2 i c) := by
  rw [Ideal.multiReduction_maximumf_single]
  show (Finset.univ : Finset (Fin k)).fold max (Ideal.ofBits .f32 0xFF800000#32) (S ∘ h.lift (ix1 i)) = _
  rw [ofBits_neg_inf]
  unfold rowMax
  exact congrArg (fun f : Fin k → EReal => (Finset.univ : Finset (Fin k)).fold max ⊥ f)
    (funext fun c => congrArg S (lift_row h i c))

/-- The row sum from zero of an n×k matrix, at row i, is the sum of the row. -/
theorem rowSum_apply (P : FVec Ideal ⟨2, ![n, k]⟩ .f32) (h : (⟨2, ![n, k]⟩ : Shape).Reduces [1] ⟨1, ![n]⟩)
    (hφ : FKind.Formats .f32) (hacc : (0x00000000#32 : BitVec 32) = FKind.add.neutral .f32 hφ) (i : Fin n) :
    multiReduction .add [1] ⟨1, ![n]⟩ P 0x00000000#32 h hφ hacc (ix1 i) = ∑ c : Fin k, P (ix2 i c) := by
  rw [Ideal.multiReduction_add_single]
  exact Finset.sum_congr rfl fun c _ => congrArg P (lift_row h i c)

/-- The exponentials of a matrix less its row maxima kept as a column, at (i, j). -/
theorem expShift_apply (S : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ)
    (c1 : (⟨1, ![n]⟩ : Shape).ShapeCasts ⟨2, ![n, 1]⟩) (b1 : (⟨2, ![n, 1]⟩ : Shape).Broadcasts ⟨2, ![n, k]⟩)
    (i : Fin n) (j : Fin k) :
    exp (subf S (broadcastTo ⟨2, ![n, k]⟩ (shapeCast ⟨2, ![n, 1]⟩
        (multiReduction .maximumf [1] ⟨1, ![n]⟩ S 0xFF800000#32 h hφ hacc) c1) b1)) (ix2 i j)
      = Ideal.exp (S (ix2 i j) - rowMax fun c : Fin k => S (ix2 i c)) := by
  show Ideal.exp (S (ix2 i j) - broadcastTo ⟨2, ![n, k]⟩ (shapeCast ⟨2, ![n, 1]⟩
        (multiReduction .maximumf [1] ⟨1, ![n]⟩ S 0xFF800000#32 h hφ hacc) c1) b1 (ix2 i j)) = _
  rw [column_apply, rowMax_apply]

/-- The softmax weights as a body writes them, at (i, j): the softmax weight of entry j of row i. -/
theorem softmax_apply (S : FVec Ideal ⟨2, ![n, k]⟩ .f32) (h : (⟨2, ![n, k]⟩ : Shape).Reduces [1] ⟨1, ![n]⟩)
    (hφ : FKind.Formats .f32) (hmax : (0xFF800000#32 : BitVec 32) = FKind.maximumf.neutral .f32 hφ)
    (hadd : (0x00000000#32 : BitVec 32) = FKind.add.neutral .f32 hφ)
    (c1 : (⟨1, ![n]⟩ : Shape).ShapeCasts ⟨2, ![n, 1]⟩) (b1 : (⟨2, ![n, 1]⟩ : Shape).Broadcasts ⟨2, ![n, k]⟩)
    (i : Fin n) (j : Fin k) :
    divf (exp (subf S (broadcastTo ⟨2, ![n, k]⟩ (shapeCast ⟨2, ![n, 1]⟩
          (multiReduction .maximumf [1] ⟨1, ![n]⟩ S 0xFF800000#32 h hφ hmax) c1) b1)))
        (broadcastTo ⟨2, ![n, k]⟩ (shapeCast ⟨2, ![n, 1]⟩
          (multiReduction .add [1] ⟨1, ![n]⟩ (exp (subf S (broadcastTo ⟨2, ![n, k]⟩ (shapeCast ⟨2, ![n, 1]⟩
            (multiReduction .maximumf [1] ⟨1, ![n]⟩ S 0xFF800000#32 h hφ hmax) c1) b1))) 0x00000000#32 h hφ hadd) c1) b1)
        (ix2 i j)
      = softmaxAt (fun c : Fin k => S (ix2 i c)) j := by
  rw [divf_apply, column_apply, rowSum_apply, expShift_apply]
  unfold softmaxAt
  exact congrArg _ (Finset.sum_congr rfl fun c _ => expShift_apply S h hφ hmax c1 b1 i c)

end Rows

end Cert.LibSoftmaxRow

end
-- ==== Proof.AttnKernel.lean ====
/-
  The attention region of the idealized kernel: what its output array holds after the region, as one function of the
  three arrays it reads.

  The grid has one point per batch; at point p the body receives batch p's slab [1, 16, 1024, 64] of the query, key and
  value arrays and, for each of the sixteen heads in turn, loads that head's [1024, 64] matrices, forms the scores
  q · kᵀ · 0.125, takes the softmax of each row (row maximum from −∞, exponentials, row sum), multiplies the weights by
  the value matrix, and stores the result as that head's slab of the output block. The sixteen stores tile the block,
  so the block holds, at (0, h, i, d), head h's result at (i, d); the eight blocks tile the array, so the array holds
  `attn` of the three arrays. Every head's stored value is the same function of its three loaded matrices, whichever way
  the body's text is cut into named terms.
-/
import proofs.«126795_j32074815767300_2_alg».proof.Proof.Gen.KernelIdeal.Frame
import Idealize.ShloMosaic.PureOps.Ideal
import proofs.«126795_j32074815767300_2_alg».proof.Proof.Spec
import proofs.«126795_j32074815767300_2_alg».proof.Proof.LibKeepdims
import proofs.«126795_j32074815767300_2_alg».proof.Proof.LibDenseLayer
import proofs.«126795_j32074815767300_2_alg».proof.Proof.LibSoftmaxRow

set_option maxRecDepth 16384

noncomputable section

namespace Cert.KernelIdeal.AttnValue

open Cert.KernelIdeal Cert.KernelIdeal.Gen
open Idealize.ShloMosaic Idealize.ShloMosaic.ValueIdx Idealize.ShloMosaic.TcCoe
open Cert.Attn Cert.LibKeepdims Cert.LibSoftmaxRow Cert.LibDenseLayer

/-- The scale of the scores: the pattern of 0.125. -/
abbrev σ : EReal := Ideal.ofBits .f32 0x3E000000#32

/-! ## One head -/

/-- One head's stored value at (i, d): the sum over key rows j of the softmax weight of j in the row of scaled scores
    of query row i, times the value entry (j, d). -/
theorem head_apply (x0 x1 x2 : Vec Ideal S1x1x1024x64 .bf16) (i : Fin 1024) (d : Fin 64) :
    k1_pay2 (F := Ideal) x0 x1 x2 (ix4 (0 : Fin 1) (0 : Fin 1) i d)
      = ∑ j : Fin 1024, softmaxAt (fun j' : Fin 1024 =>
          (∑ d' : Fin 64, x0 (ix4 (0 : Fin 1) (0 : Fin 1) i d') * x1 (ix4 (0 : Fin 1) (0 : Fin 1) j' d')) * σ) j
          * x2 (ix4 (0 : Fin 1) (0 : Fin 1) j d) := by
  unfold k1_pay2
  refine (shapeCast_ab_11ab_apply _ _ 0 0 i d).trans ?_
  refine (matmul_plain_apply none _ _ i d).trans ?_
  refine Finset.sum_congr rfl fun j _ => ?_
  have hS : ∀ c : Fin 1024,
      (mulf (matmul dot_S1024x64_S1024x64_S1024x1024_1_1_0_0_n_n none
          (shapeCast S1024x64 x0 shapeCasts_S1x1x1024x64_S1024x64)
          (shapeCast S1024x64 x1 shapeCasts_S1x1x1024x64_S1024x64) (constant S1024x1024 .f32 0x00000000#32))
        (broadcast S1024x1024 (FloatOps.ofBits .f32 0x3E000000#32)) : FVec Ideal S1024x1024 .f32) (ix2 i c)
        = (∑ d' : Fin 64, x0 (ix4 (0 : Fin 1) (0 : Fin 1) i d') * x1 (ix4 (0 : Fin 1) (0 : Fin 1) c d')) * σ := fun c => by
    rw [mulf_apply, broadcast_apply, Ideal.ofBits_def]
    refine congrArg (· * σ) ?_
    refine (matmul_transposedRhs_apply none _ _ i c).trans ?_
    exact Finset.sum_congr rfl fun d' _ => by rw [shapeCast_11ab_ab_apply, shapeCast_11ab_ab_apply]
  rw [truncf_apply]
  refine congrArg₂ (· * ·) ?_ (shapeCast_11ab_ab_apply x2 _ j d)
  refine (softmax_apply _ reduces_S1024x1024_S1024 _ _ _ shapeCasts_S1024_S1024x1 broadcasts_S1024x1_S1024x1024 i j).trans ?_
  exact congrArg (fun s : Fin 1024 → EReal => softmaxAt s j) (funext hS)

/-! ## The block -/

/-- What the body leaves in the output block at the block index y = (0, h, i, d): head h's result at (i, d), of the three
    input blocks. -/
def blockAttn (X0 X1 X2 : Vec Ideal S1x16x1024x64 .bf16) (y : S1x16x1024x64.Idx) : EReal :=
  ∑ j : Fin 1024, softmaxAt (fun j' : Fin 1024 =>
      (∑ d' : Fin 64, X0 (ix4 (0 : Fin 1) (y 1) (y 2) d') * X1 (ix4 (0 : Fin 1) (y 1) j' d')) * σ) j
    * X2 (ix4 (0 : Fin 1) (y 1) j (y 3))

theorem blockAttn_apply (X0 X1 X2 : Vec Ideal S1x16x1024x64 .bf16) (u : Fin 1) (h : Fin 16) (i : Fin 1024) (d : Fin 64) :
    blockAttn X0 X1 X2 (ix4 u h i d)
      = ∑ j : Fin 1024, softmaxAt (fun j' : Fin 1024 =>
          (∑ d' : Fin 64, X0 (ix4 (0 : Fin 1) h i d') * X1 (ix4 (0 : Fin 1) h j' d')) * σ) j * X2 (ix4 (0 : Fin 1) h j d) := rfl

/-- Head k's slab of the block, at its own index (u, v, i, d), is the block's index (0, k, i, d). -/
theorem slab_idx (k : ℕ) (hk : k < 16)
    (inb : ∀ a, (![0, k, 0, 0] : Fin 4 → ℕ) a + S1x1x1024x64.size a ≤ S1x16x1024x64.size a)
    (u v : Fin 1) (i : Fin 1024) (d : Fin 64) :
    (Rect.unit (s := S1x16x1024x64) ![0, k, 0, 0] S1x1x1024x64.size inb).idx (ix4 u v i d)
      = ix4 (0 : Fin 1) (⟨k, hk⟩ : Fin 16) i d := by
  funext a; apply Fin.ext
  have hu : u.val = 0 := by omega
  have hv : v.val = 0 := by omega
  match a with
  | ⟨0, _⟩ => show 0 + 1 * u.val = 0; omega
  | ⟨1, _⟩ => show k + 1 * v.val = k; omega
  | ⟨2, _⟩ => show 0 + 1 * i.val = i.val; omega
  | ⟨3, _⟩ => show 0 + 1 * d.val = d.val; omega

/-- The value stored for head k, at its own index, is the block's function at the index it is stored at. -/
theorem piece_apply (k : ℕ) (hk : k < 16)
    (inb : ∀ a, (![0, k, 0, 0] : Fin 4 → ℕ) a + S1x1x1024x64.size a ≤ S1x16x1024x64.size a)
    (X0 X1 X2 : Vec Ideal S1x16x1024x64 .bf16)
    (x : (Rect.unit (s := S1x16x1024x64) ![0, k, 0, 0] S1x1x1024x64.size inb).shape.Idx) :
    k1_pay2 (F := Ideal) (View.ld X0 (Rect.unit (s := S1x16x1024x64) ![0, k, 0, 0] S1x1x1024x64.size inb))
        (View.ld X1 (Rect.unit (s := S1x16x1024x64) ![0, k, 0, 0] S1x1x1024x64.size inb))
        (View.ld X2 (Rect.unit (s := S1x16x1024x64) ![0, k, 0, 0] S1x1x1024x64.size inb)) x
      = blockAttn X0 X1 X2 ((Rect.unit (s := S1x16x1024x64) ![0, k, 0, 0] S1x1x1024x64.size inb).emb x) := by
  obtain ⟨u, v, i, d, rfl⟩ : ∃ (u v : Fin 1) (i : Fin 1024) (d : Fin 64), x = ix4 u v i d := ⟨x 0, x 1, x 2, x 3, eq_ix4 x⟩
  obtain rfl : u = 0 := Subsingleton.elim _ _
  obtain rfl : v = 0 := Subsingleton.elim _ _
  refine (head_apply _ _ _ i d).trans ?_
  show _ = blockAttn X0 X1 X2 ((Rect.unit (s := S1x16x1024x64) ![0, k, 0, 0] S1x1x1024x64.size inb).idx (ix4 0 0 i d))
  rw [slab_idx k hk inb, blockAttn_apply]
  simp only [View.ld, slab_idx k hk inb]

/-- The output block after the body: `blockAttn` of the three input blocks, at every index. -/
theorem out_apply (X0 X1 X2 : Vec Ideal S1x16x1024x64 .bf16) (y : S1x16x1024x64.Idx) :
    out1_3 (F := Ideal) X0 X1 X2 y = blockAttn X0 X1 X2 y := by
  unfold out1_3
  refine View.canon_apply_of_pieces (Val := Elt Ideal)
    (show S1x16x1024x64.Idx → Elt Ideal .bf16 from blockAttn X0 X1 X2) _ ?_ y (cover1_3 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => piece_apply 15 (by decide) _ X0 X1 X2 x
  · exact fun x => piece_apply 14 (by decide) _ X0 X1 X2 x
  · exact fun x => piece_apply 13 (by decide) _ X0 X1 X2 x
  · exact fun x => piece_apply 12 (by decide) _ X0 X1 X2 x
  · exact fun x => piece_apply 11 (by decide) _ X0 X1 X2 x
  · exact fun x => piece_apply 10 (by decide) _ X0 X1 X2 x
  · exact fun x => piece_apply 9 (by decide) _ X0 X1 X2 x
  · exact fun x => piece_apply 8 (by decide) _ X0 X1 X2 x
  · exact fun x => piece_apply 7 (by decide) _ X0 X1 X2 x
  · exact fun x => piece_apply 6 (by decide) _ X0 X1 X2 x
  · exact fun x => piece_apply 5 (by decide) _ X0 X1 X2 x
  · exact fun x => piece_apply 4 (by decide) _ X0 X1 X2 x
  · exact fun x => piece_apply 3 (by decide) _ X0 X1 X2 x
  · exact fun x => piece_apply 2 (by decide) _ X0 X1 X2 x
  · exact fun x => piece_apply 1 (by decide) _ X0 X1 X2 x
  · exact fun x => piece_apply 0 (by decide) _ X0 X1 X2 x

/-- If the three input blocks are batch p's slabs of the arrays Q, K, W, the block's function at (u, h, i, d) is `attn` of the
    arrays at (p, h, i, d). -/
theorem block_eq (Q K W : (⟨4, ![8, 16, 1024, 64]⟩ : Shape).Idx → EReal) (X0 X1 X2 : Vec Ideal S1x16x1024x64 .bf16) (p : Fin 8)
    (h0 : ∀ (h : Fin 16) (i : Fin 1024) (d : Fin 64), X0 (ix4 (0 : Fin 1) h i d) = Q (ix4 p h i d))
    (h1 : ∀ (h : Fin 16) (i : Fin 1024) (d : Fin 64), X1 (ix4 (0 : Fin 1) h i d) = K (ix4 p h i d))
    (h2 : ∀ (h : Fin 16) (i : Fin 1024) (d : Fin 64), X2 (ix4 (0 : Fin 1) h i d) = W (ix4 p h i d))
    (u : Fin 1) (h : Fin 16) (i : Fin 1024) (d : Fin 64) :
    blockAttn X0 X1 X2 (ix4 u h i d) = attn Q K W σ (ix4 p h i d) := by
  rw [blockAttn_apply, attn_apply]
  unfold score
  simp only [h0, h1, h2]

end Cert.KernelIdeal.AttnValue

end
-- ==== Proof.AttnRegion.lean ====
/-
  The attention region's output array, once all of its blocks are written back, is attention of the three arrays the
  region finds on entry.

  The grid has one point per batch. Point t takes block (t, 0, 0, 0) of each of the four arrays: the whole slab
  [1, 16, 1024, 64] of batch t. So each input block at (0, h, i, d) is its array at (t, h, i, d); what the body leaves in
  the output block is then attention of the three arrays at (t, h, i, d), which is the output array's block t of that
  function; and the eight blocks cover the array, batch p being the block of point p.
-/
import proofs.«126795_j32074815767300_2_alg».proof.Proof.AttnKernel
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.AttnValue

open Cert.KernelIdeal Cert.KernelIdeal.Gen

variable (V : (c : Dev nD) → (b : Ref sig .tc) → Buf (Elt Ideal) ((c : Thread nD τ).loc b))

/-- The region's output array as one function of the arrays the region finds. -/
abbrev G1 (c : Dev nD) : (⟨4, ![8, 16, 1024, 64]⟩ : Shape).Idx → EReal :=
  Cert.Attn.attn (V c main_v10) (V c main_v12) (V c main_v14) σ

/-! ## The blocks' index maps over the grid: point t takes block (t, 0, 0, 0) of every array -/

theorem idx1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

theorem idx1_1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

theorem idx1_2 : ∀ t : Fin cfg1.N, win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

theorem idx1_3 : ∀ t : Fin cfg1.N, win1_3.index t (0 : Fin 4) = t.val ∧ win1_3.index t (1 : Fin 4) = 0
    ∧ win1_3.index t (2 : Fin 4) = 0 ∧ win1_3.index t (3 : Fin 4) = 0 :=
  (by decide +kernel : ∀ t : Fin grid1.N, _)

/-! ## The input blocks are the batch's slabs -/

/-- The query block of point t at (0, h, i, d) is the query array at (p, h, i, d), p the point's batch. -/
theorem slab1_0 (c : Dev nD) (t : Fin cfg1.N) (p : Fin 8) (hp : p.val = t.val) (h : Fin 16) (i : Fin 1024) (d : Fin 64) :
    Gen.iblk1 V c 0 t (ix4 (0 : Fin 1) h i d) = V c main_v10 (ix4 p h i d) := by
  obtain ⟨e0, e1, e2, e3⟩ := idx1_0 t
  show V c main_v10 (((cfg1.win 0).blk t).view.emb (ix4 (0 : Fin 1) h i d)) = _
  refine congrArg (V c main_v10) (funext fun a => Fin.ext ?_)
  match a with
  | ⟨0, _⟩ => show win1_0.index t (0 : Fin 4) * 1 + 1 * 0 = p.val; omega
  | ⟨1, _⟩ => show win1_0.index t (1 : Fin 4) * 16 + 1 * h.val = h.val; omega
  | ⟨2, _⟩ => show win1_0.index t (2 : Fin 4) * 1024 + 1 * i.val = i.val; omega
  | ⟨3, _⟩ => show win1_0.index t (3 : Fin 4) * 64 + 1 * d.val = d.val; omega

/-- The key block of point t at (0, h, i, d) is the key array at (p, h, i, d). -/
theorem slab1_1 (c : Dev nD) (t : Fin cfg1.N) (p : Fin 8) (hp : p.val = t.val) (h : Fin 16) (i : Fin 1024) (d : Fin 64) :
    Gen.iblk1 V c 1 t (ix4 (0 : Fin 1) h i d) = V c main_v12 (ix4 p h i d) := by
  obtain ⟨e0, e1, e2, e3⟩ := idx1_1 t
  show V c main_v12 (((cfg1.win 1).blk t).view.emb (ix4 (0 : Fin 1) h i d)) = _
  refine congrArg (V c main_v12) (funext fun a => Fin.ext ?_)
  match a with
  | ⟨0, _⟩ => show win1_1.index t (0 : Fin 4) * 1 + 1 * 0 = p.val; omega
  | ⟨1, _⟩ => show win1_1.index t (1 : Fin 4) * 16 + 1 * h.val = h.val; omega
  | ⟨2, _⟩ => show win1_1.index t (2 : Fin 4) * 1024 + 1 * i.val = i.val; omega
  | ⟨3, _⟩ => show win1_1.index t (3 : Fin 4) * 64 + 1 * d.val = d.val; omega

/-- The value block of point t at (0, h, i, d) is the value array at (p, h, i, d). -/
theorem slab1_2 (c : Dev nD) (t : Fin cfg1.N) (p : Fin 8) (hp : p.val = t.val) (h : Fin 16) (i : Fin 1024) (d : Fin 64) :
    Gen.iblk1 V c 2 t (ix4 (0 : Fin 1) h i d) = V c main_v14 (ix4 p h i d) := by
  obtain ⟨e0, e1, e2, e3⟩ := idx1_2 t
  show V c main_v14 (((cfg1.win 2).blk t).view.emb (ix4 (0 : Fin 1) h i d)) = _
  refine congrArg (V c main_v14) (funext fun a => Fin.ext ?_)
  match a with
  | ⟨0, _⟩ => show win1_2.index t (0 : Fin 4) * 1 + 1 * 0 = p.val; omega
  | ⟨1, _⟩ => show win1_2.index t (1 : Fin 4) * 16 + 1 * h.val = h.val; omega
  | ⟨2, _⟩ => show win1_2.index t (2 : Fin 4) * 1024 + 1 * i.val = i.val; omega
  | ⟨3, _⟩ => show win1_2.index t (3 : Fin 4) * 64 + 1 * d.val = d.val; omega

/-! ## What a grid point writes back -/

/-- What point t leaves in its output block at (u, h, i, d) is attention of the whole arrays at (p, h, i, d), p the
    point's batch. -/
theorem point1_apply (c : Dev nD) (t : Fin cfg1.N) (p : Fin 8) (hp : p.val = t.val)
    (u : Fin 1) (h : Fin 16) (i : Fin 1024) (d : Fin 64) :
    Gen.out1_3 (F := Ideal) (Gen.iblk1 V c 0 t) (Gen.iblk1 V c 1 t) (Gen.iblk1 V c 2 t) (ix4 u h i d)
      = G1 V c (ix4 p h i d) :=
  (out_apply (Gen.iblk1 V c 0 t) (Gen.iblk1 V c 1 t) (Gen.iblk1 V c 2 t) (ix4 u h i d)).trans
    (block_eq (V c main_v10) (V c main_v12) (V c main_v14) (Gen.iblk1 V c 0 t) (Gen.iblk1 V c 1 t) (Gen.iblk1 V c 2 t) p
      (slab1_0 V c t p hp) (slab1_1 V c t p hp) (slab1_2 V c t p hp) u h i d)

/-- What point t writes back is its block of attention of the whole arrays. -/
theorem flushed1_eq (c : Dev nD) (t : Fin cfg1.N) :
    (Gen.dat1 (F := Ideal) V c).flushed 3 t = ((cfg1.win 3).blk t).view.read (Elt Ideal) (G1 V c) := by
  show (cfg1.win 3).cut (grid1.coords t) ((Gen.dat1 V c).after 3 t) = _
  rw [Gen.after1_3]
  funext j
  show Gen.out1_3 (Gen.iblk1 V c 0 t) (Gen.iblk1 V c 1 t) (Gen.iblk1 V c 2 t) j = G1 V c (((cfg1.win 3).blk t).view.emb j)
  obtain ⟨e0, e1, e2, e3⟩ := idx1_3 t
  have ht : t.val < 8 := lt_of_lt_of_eq t.isLt (show cfg1.N = 8 from N_1)
  have hL : j = ix4 (j 0) (j 1) (j 2) (j 3) := funext fun a => Fin.ext (by
    match a with
    | ⟨0, _⟩ => rfl
    | ⟨1, _⟩ => rfl
    | ⟨2, _⟩ => rfl
    | ⟨3, _⟩ => rfl)
  refine (congrArg (Gen.out1_3 (Gen.iblk1 V c 0 t) (Gen.iblk1 V c 1 t) (Gen.iblk1 V c 2 t)) hL).trans
    ((point1_apply V c t ⟨t.val, ht⟩ rfl (j 0) (j 1) (j 2) (j 3)).trans
      (congrArg (G1 V c) (funext fun a => Fin.ext ?_)))
  have h0 : (j 0).val < 1 := (j 0).isLt
  match a with
  | ⟨0, _⟩ => show t.val = win1_3.index t (0 : Fin 4) * 1 + 1 * (j 0).val; omega
  | ⟨1, _⟩ => show (j 1).val = win1_3.index t (1 : Fin 4) * 16 + 1 * (j 1).val; omega
  | ⟨2, _⟩ => show (j 2).val = win1_3.index t (2 : Fin 4) * 1024 + 1 * (j 2).val; omega
  | ⟨3, _⟩ => show (j 3).val = win1_3.index t (3 : Fin 4) * 64 + 1 * (j 3).val; omega

/-! ## The blocks cover the array -/

/-- An index of the output array is in point t's block iff each coordinate is in the block's range on its axis. -/
theorem mem_blk1 (t : Fin cfg1.N) (i : S8x16x1024x64.Idx) :
    i ∈ ((cfg1.win 3).blk t).view.set ↔ ∀ a : Fin 4, win1_3.index t a * S1x16x1024x64.size a ≤ (i a).val
      ∧ (i a).val < win1_3.index t a * S1x16x1024x64.size a + S1x16x1024x64.size a := by
  show i ∈ ((View.whole main_v15).slice (win1_3.rect t)).set ↔ _
  rw [View.set_slice_whole, Rect.mem_set_unit]
  exact Iff.rfl

/-- Batch p is the block of point p, and every point writes its block back. -/
theorem cover1 (i : S8x16x1024x64.Idx) :
    ∃ t : Fin cfg1.N, (cfg1.win 3).flush t = true ∧ i ∈ ((cfg1.win 3).blk t).view.set := by
  have h0 : (i 0).val < 8 := (i 0).isLt
  have h1 : (i 1).val < 16 := (i 1).isLt
  have h2 : (i 2).val < 1024 := (i 2).isLt
  have h3 : (i 3).val < 64 := (i 3).isLt
  have hN : cfg1.N = 8 := N_1
  obtain ⟨t, ht⟩ : ∃ t : Fin cfg1.N, t.val = (i 0).val := ⟨⟨(i 0).val, by rw [hN]; omega⟩, rfl⟩
  obtain ⟨e0, e1, e2, e3⟩ := idx1_3 t
  refine ⟨t, Gen.flush1_3 t, ?_⟩
  rw [mem_blk1]
  intro a
  match a with
  | ⟨0, _⟩ =>
    show win1_3.index t (0 : Fin 4) * 1 ≤ (i 0).val ∧ (i 0).val < win1_3.index t (0 : Fin 4) * 1 + 1
    omega
  | ⟨1, _⟩ =>
    show win1_3.index t (1 : Fin 4) * 16 ≤ (i 1).val ∧ (i 1).val < win1_3.index t (1 : Fin 4) * 16 + 16
    omega
  | ⟨2, _⟩ =>
    show win1_3.index t (2 : Fin 4) * 1024 ≤ (i 2).val ∧ (i 2).val < win1_3.index t (2 : Fin 4) * 1024 + 1024
    omega
  | ⟨3, _⟩ =>
    show win1_3.index t (3 : Fin 4) * 64 ≤ (i 3).val ∧ (i 3).val < win1_3.index t (3 : Fin 4) * 64 + 64
    omega

/-! ## The array after the region -/

/-- THE ATTENTION REGION: the output array, once every point has written its block back, is attention of the query, key
    and value arrays as the region finds them, at the scale 0.125. -/
theorem region1_value (c : Dev nD) :
    ((Gen.dat1 (F := Ideal) V c).arrAt 3 cfg1.N : (⟨4, ![8, 16, 1024, 64]⟩ : Shape).Idx → EReal)
      = Cert.Attn.attn (V c main_v10) (V c main_v12) (V c main_v14) σ :=
  (Gen.dat1 (F := Ideal) V c).arrAt_eq_of_cover 3 (G1 V c) (fun t _ => flushed1_eq V c t) cover1

end Cert.KernelIdeal.AttnValue

end
-- ==== Proof.RefDense.lean ====
/-
  The reference's two dense layers, entry by entry.

  Each is a contraction of the last axis of a batch of rows against the first axis of a matrix, followed by the sum
  with a bias row that is first read as a 1 x 1 x E array and then repeated over batches and rows. At (p, r, e) the
  contraction reads the row at (p, r, k) and the matrix at (k, e); the two repetitions of the bias read it at e alone.
  That is the function `dense` of the rows, the matrix and the bias.
-/
import proofs.«126795_j32074815767300_2_alg».proof.Proof.Gen.ReferenceIdeal.Read
import proofs.«126795_j32074815767300_2_alg».proof.Proof.Spec

noncomputable section

namespace Cert.ReferenceIdeal.RefValue

open Cert.ReferenceIdeal Cert.ReferenceIdeal.Read Cert.Attn Idealize.ShloMosaic Idealize.ShloMosaic.ValueIdx

/-- The first dense layer: the product of the input rows with the 1024 x 3072 matrix, plus the bias of length 3072. -/
theorem ref_qkv (x0 : (⟨S8x1024x1024, .f32⟩ : BufTy).Contents (Elt Ideal)) (x1 : (⟨S1024x3072, .f32⟩ : BufTy).Contents (Elt Ideal))
    (x2 : (⟨S3072, .f32⟩ : BufTy).Contents (Elt Ideal)) :
    (Read.val_main_v3 (F := Ideal) x0 x1 x2 : S8x1024x3072.Idx → EReal) = dense x0 x1 (fun e => x2 (ix1 e)) := by
  funext i
  obtain ⟨p, r, e, rfl⟩ : ∃ p r e, i = ix3 p r e := ⟨i 0, i 1, i 2, eq_ix3 i⟩
  -- the contraction reads the row at (p, r, k) and the matrix at (k, e)
  have hl : ∀ k : Fin 1024, lidx_main_v0 (ix3 p r e) k = ix3 p r k := fun k =>
    funext fun a => Fin.ext (by match a with | ⟨0, _⟩ => rfl | ⟨1, _⟩ => rfl | ⟨2, _⟩ => rfl)
  have hr : ∀ k : Fin 1024, ridx_main_v0 (ix3 p r e) k = ix2 k e := fun k =>
    funext fun a => Fin.ext (by match a with | ⟨0, _⟩ => rfl | ⟨1, _⟩ => rfl)
  -- the two repetitions of the bias read it at e
  have hb : idx_main_v1 (idx_main_v2 (ix3 p r e)) = ix1 e :=
    funext fun a => Fin.ext (by match a with | ⟨0, _⟩ => rfl)
  rw [val_main_v3_apply, val_main_v0_apply, val_main_v2_apply, val_main_v1_apply, dense_apply, Ideal.addf_def, hb]
  simp only [hl, hr]

/-- The last dense layer: the product of the rows of the merged heads with the 1024 x 1024 matrix, plus the bias of length 1024. -/
theorem ref_out (x0 : (⟨S8x1024x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    (Read.val_main_v34 (F := Ideal) x0 x1 x2 x3 x4 : S8x1024x1024.Idx → EReal)
      = dense (Read.val_main_v30 (F := Ideal) x0 x1 x2) x3 (fun e => x4 (ix1 e)) := by
  funext i
  obtain ⟨p, r, e, rfl⟩ : ∃ p r e, i = ix3 p r e := ⟨i 0, i 1, i 2, eq_ix3 i⟩
  -- the contraction reads the row at (p, r, k) and the matrix at (k, e)
  have hl : ∀ k : Fin 1024, lidx_main_v31 (ix3 p r e) k = ix3 p r k := fun k =>
    funext fun a => Fin.ext (by match a with | ⟨0, _⟩ => rfl | ⟨1, _⟩ => rfl | ⟨2, _⟩ => rfl)
  have hr : ∀ k : Fin 1024, ridx_main_v31 (ix3 p r e) k = ix2 k e := fun k =>
    funext fun a => Fin.ext (by match a with | ⟨0, _⟩ => rfl | ⟨1, _⟩ => rfl)
  -- the two repetitions of the bias read it at e
  have hb : idx_main_v32 (idx_main_v33 (ix3 p r e)) = ix1 e :=
    funext fun a => Fin.ext (by match a with | ⟨0, _⟩ => rfl)
  rw [val_main_v34_apply, val_main_v31_apply, val_main_v33_apply, val_main_v32_apply, dense_apply, Ideal.addf_def, hb]
  simp only [hl, hr]

end Cert.ReferenceIdeal.RefValue

end
-- ==== Proof.RefAttn.lean ====
/-
  The reference's attention, entry by entry.

  For batch p and head h the reference forms the scores of query row i against key row j as the contraction of the two
  rows over the 64 head coordinates, divided by the square root of 64; subtracts from each score the largest score of
  its row (taken from −∞); exponentiates; divides each exponential by the sum of its row's exponentials (taken from 0);
  and contracts the resulting weights against the value rows. The quotient by the square root of 64 is the product
  with 1/8, the row's largest entry is the fold of `max` from the bottom element over the row, and the sum from 0 is
  the sum, so the weights are `softmaxAt` of the row of scores and the result is `attn` of the three head arrays.
-/
import proofs.«126795_j32074815767300_2_alg».proof.Proof.Gen.ReferenceIdeal.Read
import proofs.«126795_j32074815767300_2_alg».proof.Proof.Spec

noncomputable section

namespace Cert.ReferenceIdeal.RefValue

open Cert.ReferenceIdeal Cert.ReferenceIdeal.Read Cert.Attn Idealize.ShloMosaic Idealize.ShloMosaic.ValueIdx

variable (x0 : (⟨S8x1024x1024, .f32⟩ : BufTy).Contents (Elt Ideal)) (x1 : (⟨S1024x3072, .f32⟩ : BufTy).Contents (Elt Ideal))
  (x2 : (⟨S3072, .f32⟩ : BufTy).Contents (Elt Ideal))

/-- The row of scaled scores of query row r, in batch p and head h, of the reference's three head arrays. -/
abbrev refScore (p : Fin 8) (h : Fin 16) (r : Fin 1024) : Fin 1024 → EReal :=
  score (Read.val_main_v8 (F := Ideal) x0 x1 x2) (Read.val_main_v10 (F := Ideal) x0 x1 x2) (Ideal.ofBits .f32 0x3E000000#32) p h r

/-- The reference's scaled scores: the contraction over the head coordinates, the quotient by the square root of 64
    read as the product with 1/8. -/
theorem ref_score (p : Fin 8) (h : Fin 16) (r j : Fin 1024) :
    Read.val_main_v16 (F := Ideal) x0 x1 x2 (ix4 p h r j) = refScore x0 x1 x2 p h r j := by
  -- the contraction reads the query row at (p, h, r, k) and the key row at (p, h, j, k)
  have hl : ∀ k : Fin 64, lidx_main_v13 (ix4 p h r j) k = ix4 p h r k := fun k =>
    funext fun a => Fin.ext (by match a with | ⟨0, _⟩ => rfl | ⟨1, _⟩ => rfl | ⟨2, _⟩ => rfl | ⟨3, _⟩ => rfl)
  have hr : ∀ k : Fin 64, ridx_main_v13 (ix4 p h r j) k = ix4 p h j k := fun k =>
    funext fun a => Fin.ext (by match a with | ⟨0, _⟩ => rfl | ⟨1, _⟩ => rfl | ⟨2, _⟩ => rfl | ⟨3, _⟩ => rfl)
  rw [val_main_v16_apply, val_main_v13_apply, val_main_v15_apply, val_main_v14_apply, val_main_cst_apply,
    Ideal.hostDivf_def, Ideal.hostUnary_sqrt_def, Ideal.ofBits_def, div_sqrt_64]
  simp only [hl, hr]
  rfl

/-- The reference's row maximum: the larger of −∞ and the fold of the maximum from −∞ over the row of scores, which is
    the fold of `max` from the bottom element over the row. -/
theorem ref_rowMax (p : Fin 8) (h : Fin 16) (r : Fin 1024) :
    Read.val_main_v19 (F := Ideal) x0 x1 x2 (ix3 p h r) = rowMax (refScore x0 x1 x2 p h r) := by
  have hred : S8x16x1024x1024.Reduces [3] S8x16x1024 := by decide
  -- the reduced axis is the last: over (p, h, r) the row's entries are those at (p, h, r, k)
  have hlift : ∀ k : Fin 1024, hred.lift (ix3 p h r) k = ix4 p h r k := fun k =>
    funext fun a => Fin.ext (by match a with | ⟨0, _⟩ => rfl | ⟨1, _⟩ => rfl | ⟨2, _⟩ => rfl | ⟨3, _⟩ => rfl)
  have hrow : (Read.val_main_v16 (F := Ideal) x0 x1 x2) ∘ hred.lift (ix3 p h r) = refScore x0 x1 x2 p h r :=
    funext fun (k : Fin 1024) =>
      (congrArg (Read.val_main_v16 (F := Ideal) x0 x1 x2) (hlift k)).trans (ref_score x0 x1 x2 p h r k)
  rw [val_main_v19_apply, val_main_v18_apply, val_main_cst_1_apply, Ideal.maximumf_def, Ideal.ofBits_def, ofBits_neg_inf,
    max_eq_right bot_le]
  unfold val_main_v17
  rw [Host.reduce_eq_fold_single FloatOps.maximumf _ _ Gen.reducesTo_S8x16x1024x1024_S8x16x1024_d3 hred Gen.h_S_ (ix3 p h r),
    val_main_cst_0_apply, Ideal.ofBits_def, ofBits_neg_inf, hrow]
  rfl

/-- The reference's exponentials: each score less its row's maximum, exponentiated. The maximum is repeated along the
    row through an array with a last axis of size one, so at (p, h, r, j) it is the maximum of row (p, h, r). -/
theorem ref_exp (p : Fin 8) (h : Fin 16) (r j : Fin 1024) :
    Read.val_main_v23 (F := Ideal) x0 x1 x2 (ix4 p h r j)
      = Ideal.exp (refScore x0 x1 x2 p h r j - rowMax (refScore x0 x1 x2 p h r)) := by
  have hb : idx_main_v20 (idx_main_v21 (ix4 p h r j)) = ix3 p h r :=
    funext fun a => Fin.ext (by match a with | ⟨0, _⟩ => rfl | ⟨1, _⟩ => rfl | ⟨2, _⟩ => rfl)
  rw [val_main_v23_apply, val_main_v22_apply, val_main_v21_apply, val_main_v20_apply, hb, ref_score, ref_rowMax,
    Ideal.hostUnary_exp_def, Ideal.subf_def]

/-- The reference's row sum: the sum from 0 of the row's exponentials, which is their sum. -/
theorem ref_rowSum (p : Fin 8) (h : Fin 16) (r : Fin 1024) :
    Read.val_main_v24 (F := Ideal) x0 x1 x2 (ix3 p h r)
      = ∑ k : Fin 1024, Ideal.exp (refScore x0 x1 x2 p h r k - rowMax (refScore x0 x1 x2 p h r)) := by
  have hk : ∀ k : Fin 1024, idx_main_v24 (ix3 p h r) k = ix4 p h r k := fun k =>
    funext fun a => Fin.ext (by match a with | ⟨0, _⟩ => rfl | ⟨1, _⟩ => rfl | ⟨2, _⟩ => rfl | ⟨3, _⟩ => rfl)
  rw [val_main_v24_apply, val_main_cst_2_apply, Ideal.ofBits_def, Ideal.ofBits_zero_f32, zero_add]
  exact Finset.sum_congr rfl fun k _ => by rw [hk k, ref_exp]

/-- The reference's weights: each exponential over its row's sum, the sum repeated along the row as the maximum was.
    That is the softmax weight of entry j in the row of scores. -/
theorem ref_softmax (p : Fin 8) (h : Fin 16) (r j : Fin 1024) :
    Read.val_main_v27 (F := Ideal) x0 x1 x2 (ix4 p h r j) = softmaxAt (refScore x0 x1 x2 p h r) j := by
  have hb : idx_main_v25 (idx_main_v26 (ix4 p h r j)) = ix3 p h r :=
    funext fun a => Fin.ext (by match a with | ⟨0, _⟩ => rfl | ⟨1, _⟩ => rfl | ⟨2, _⟩ => rfl)
  rw [val_main_v27_apply, val_main_v26_apply, val_main_v25_apply, hb, ref_exp, ref_rowSum, Ideal.hostDivf_def]
  rfl

/-- The reference's attention is `attn` of its three head arrays with the scale 1/8: at (p, h, r, d) the contraction of
    the weights of row (p, h, r) against the value entries at (p, h, k, d). -/
theorem ref_attn :
    (Read.val_main_v28 (F := Ideal) x0 x1 x2 : S8x16x1024x64.Idx → EReal)
      = attn (Read.val_main_v8 (F := Ideal) x0 x1 x2) (Read.val_main_v10 (F := Ideal) x0 x1 x2)
          (Read.val_main_v12 (F := Ideal) x0 x1 x2) (Ideal.ofBits .f32 0x3E000000#32) := by
  funext i
  obtain ⟨p, h, r, d, rfl⟩ : ∃ p h r d, i = ix4 p h r d := ⟨i 0, i 1, i 2, i 3, eq_ix4 i⟩
  have hl : ∀ k : Fin 1024, lidx_main_v28 (ix4 p h r d) k = ix4 p h r k := fun k =>
    funext fun a => Fin.ext (by match a with | ⟨0, _⟩ => rfl | ⟨1, _⟩ => rfl | ⟨2, _⟩ => rfl | ⟨3, _⟩ => rfl)
  have hr : ∀ k : Fin 1024, ridx_main_v28 (ix4 p h r d) k = ix4 p h k d := fun k =>
    funext fun a => Fin.ext (by match a with | ⟨0, _⟩ => rfl | ⟨1, _⟩ => rfl | ⟨2, _⟩ => rfl | ⟨3, _⟩ => rfl)
  rw [val_main_v28_apply, attn_apply]
  exact Finset.sum_congr rfl fun k _ => by rw [hl k, hr k, ref_softmax]

end Cert.ReferenceIdeal.RefValue

end
-- ==== Proof.Bridge.lean ====
/-
  The idealized kernel's arrays are the reference's, stage by stage.

  Both programs compute multi-head attention in the same five stages: the projection x · Wqkv + bqkv; its three column
  ranges cut, cast and transposed into query, key and value heads; per batch and head the softmax of the scaled scores
  times the values; the heads transposed back and merged; the projection ctx · Wo + bo. The kernel runs stages one, three
  and five as kernel regions and the reference as host operations; stages two and four are the same host operations in
  both. At the extended reals each region's array is the same function of the arrays entering it as the reference's
  stage (a rounding to bf16 is the identity, a product into a zero accumulator is the host's contraction, a product with
  0.125 is the quotient by the square root of 64), so by induction along the five stages the kernel's result array is the
  reference's result term of the argument arrays.
-/
import proofs.«126795_j32074815767300_2_alg».proof.Proof.ChainHost
import proofs.«126795_j32074815767300_2_alg».proof.Proof.DenseKernel
import proofs.«126795_j32074815767300_2_alg».proof.Proof.AttnRegion
import proofs.«126795_j32074815767300_2_alg».proof.Proof.RefDense
import proofs.«126795_j32074815767300_2_alg».proof.Proof.RefAttn

set_option maxRecDepth 16384

noncomputable section

namespace Cert.Proof.Bridge

open Idealize.ShloMosaic Idealize.ShloMosaic.TcCoe Idealize.ShloMosaic.ValueIdx Idealize.SL.Sem
open Cert.KernelIdeal.Chain Cert.Attn

variable (m : (ℓ : Loc Cert.KernelIdeal.nD Cert.KernelIdeal.τ Cert.KernelIdeal.sig) → Buf (Elt Ideal) ℓ)
  (ρ : Dev Cert.KernelIdeal.nD → PrngReg)

/-- After the first region the projected array is the reference's projection of the arguments. -/
theorem qkv (c : Dev Cert.KernelIdeal.nD) :
    (Cert.KernelIdeal.Gen.W2 m ρ c (Proc.devRef .tc Cert.KernelIdeal.main_v5) : (⟨3, ![8, 1024, 3072]⟩ : Shape).Idx → EReal)
      = Cert.ReferenceIdeal.Read.val_main_v3 (F := Ideal) (A0 m c) (A1 m c) (A2 m c) := by
  rw [Cert.ReferenceIdeal.RefValue.ref_qkv, W2_v5, Cert.KernelIdeal.DenseValue.region0_value, V1_v0, V1_v1, V1_v3_row]

/-- The three head arrays entering the second region are the reference's. -/
theorem heads_q (c : Dev Cert.KernelIdeal.nD) :
    (Cert.KernelIdeal.Gen.V3 m ρ c Cert.KernelIdeal.main_v10 : (⟨4, ![8, 16, 1024, 64]⟩ : Shape).Idx → EReal)
      = Cert.ReferenceIdeal.Read.val_main_v8 (F := Ideal) (A0 m c) (A1 m c) (A2 m c) := by
  rw [V3_v10, qkv]; rfl
theorem heads_k (c : Dev Cert.KernelIdeal.nD) :
    (Cert.KernelIdeal.Gen.V3 m ρ c Cert.KernelIdeal.main_v12 : (⟨4, ![8, 16, 1024, 64]⟩ : Shape).Idx → EReal)
      = Cert.ReferenceIdeal.Read.val_main_v10 (F := Ideal) (A0 m c) (A1 m c) (A2 m c) := by
  rw [V3_v12, qkv]; rfl
theorem heads_v (c : Dev Cert.KernelIdeal.nD) :
    (Cert.KernelIdeal.Gen.V3 m ρ c Cert.KernelIdeal.main_v14 : (⟨4, ![8, 16, 1024, 64]⟩ : Shape).Idx → EReal)
      = Cert.ReferenceIdeal.Read.val_main_v12 (F := Ideal) (A0 m c) (A1 m c) (A2 m c) := by
  rw [V3_v14, qkv]; rfl

/-- After the second region the attention array is the reference's. -/
theorem ctx (c : Dev Cert.KernelIdeal.nD) :
    (Cert.KernelIdeal.Gen.W4 m ρ c (Proc.devRef .tc Cert.KernelIdeal.main_v15) : (⟨4, ![8, 16, 1024, 64]⟩ : Shape).Idx → EReal)
      = Cert.ReferenceIdeal.Read.val_main_v28 (F := Ideal) (A0 m c) (A1 m c) (A2 m c) := by
  rw [Cert.ReferenceIdeal.RefValue.ref_attn, W4_v15, Cert.KernelIdeal.AttnValue.region1_value, heads_q, heads_k, heads_v]

/-- The heads merged back, entering the third region, are the reference's. -/
theorem merged (c : Dev Cert.KernelIdeal.nD) :
    (Cert.KernelIdeal.Gen.V5 m ρ c Cert.KernelIdeal.main_v17 : (⟨3, ![8, 1024, 1024]⟩ : Shape).Idx → EReal)
      = Cert.ReferenceIdeal.Read.val_main_v30 (F := Ideal) (A0 m c) (A1 m c) (A2 m c) := by
  rw [V5_v17, ctx]; rfl

/-- After the third region the result array is the reference's result of the arguments. -/
theorem out (c : Dev Cert.KernelIdeal.nD) :
    (Cert.KernelIdeal.Gen.W6 m ρ c (Proc.devRef .tc Cert.KernelIdeal.main_v18) : (⟨3, ![8, 1024, 1024]⟩ : Shape).Idx → EReal)
      = Cert.ReferenceIdeal.Read.val_main_v34 (F := Ideal) (A0 m c) (A1 m c) (A2 m c) (A3 m c) (A4 m c) := by
  rw [Cert.ReferenceIdeal.RefValue.ref_out, W6_v18, Cert.KernelIdeal.DenseValue.region2_value, merged, V5_v2, V5_v4_row]

end Cert.Proof.Bridge

end
-- ==== Proof.lean ====
/-
  Multi-head attention as three kernel regions against its jnp reference, over the extended reals.

  The kernel rounds its inputs to bf16, projects x · Wqkv + bqkv in a first region, cuts the result into query, key and
  value heads on the host, computes softmax(q · kᵀ · 0.125) · v head by head in a second region, merges the heads on the
  host and projects ctx · Wo + bo in a third region. The reference does the same with einsum, jax.nn.softmax and a
  division by the square root of 64. Read at the extended reals, where a change of float format is the identity and
  every operation is exact, the two are one function of the five argument arrays: the square root of 64 is 8 and 0.125
  is 1/8, a quotient by 8 is a product with 1/8 on every extended real, and each kernel region computes the same sums,
  maxima and exponentials, index by index, as the reference's host operations. No law used needs finiteness, so the
  precondition is never opened.

  The three frames: both kernels' are their generated frame certificates, the reference's is its generated run with the
  result dropped. The idealization rewrote nothing. For the value claim the kernel's run is restated with its result
  buffer named (the last boundary of the run's fold), that contents is shown to be the reference's result term of the
  arguments stage by stage, and the reference's generated run ends at the same term of arguments that agree.
-/
import proofs.«126795_j32074815767300_2_alg».proof.Defs
import proofs.«126795_j32074815767300_2_alg».proof.Proof.Gen.Kernel
import proofs.«126795_j32074815767300_2_alg».proof.Proof.Gen.Kernel.Skeleton
import proofs.«126795_j32074815767300_2_alg».proof.Proof.Gen.Kernel.Launch
import proofs.«126795_j32074815767300_2_alg».proof.Proof.Gen.Kernel.Points
import proofs.«126795_j32074815767300_2_alg».proof.Proof.Gen.Kernel.Frame
import proofs.«126795_j32074815767300_2_alg».proof.Proof.Gen.KernelIdeal
import proofs.«126795_j32074815767300_2_alg».proof.Proof.Gen.KernelIdeal.Skeleton
import proofs.«126795_j32074815767300_2_alg».proof.Proof.Gen.KernelIdeal.Launch
import proofs.«126795_j32074815767300_2_alg».proof.Proof.Gen.KernelIdeal.Points
import proofs.«126795_j32074815767300_2_alg».proof.Proof.Gen.KernelIdeal.Frame
import proofs.«126795_j32074815767300_2_alg».proof.Proof.Gen.ReferenceIdeal
import proofs.«126795_j32074815767300_2_alg».proof.Proof.Gen.Pre_finite_inputs
import proofs.«126795_j32074815767300_2_alg».proof.Proof.Gen.ReferenceIdeal.Run
import proofs.«126795_j32074815767300_2_alg».proof.Proof.Gen.ReferenceIdeal.Read
import proofs.«126795_j32074815767300_2_alg».proof.Proof.RunValue
import proofs.«126795_j32074815767300_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end, from arguments that agree, at the reference's result term of the kernel's arguments. -/
theorem algebraic : Cert.algebraic_KernelIdeal_ReferenceIdeal := by
  intro m ρ m' ρ' _ hagree
  refine ⟨fun c => Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Proof.Bridge.out m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
